-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x3 : Shape := ⟨3, ![2, 100000, 3]⟩
abbrev S2x100000 : Shape := ⟨2, ![2, 100000]⟩
abbrev S64x3 : Shape := ⟨2, ![64, 3]⟩
abbrev S64 : Shape := ⟨1, ![64]⟩
abbrev S_ : Shape := ⟨0, ![]⟩

class Facts : Prop where
  bcast_S_S2x100000x3 : S_.BroadcastsInDim S2x100000x3 (![] : Fin 0 → Fin S2x100000x3.rank)
  reducesTo_S2x100000x3_S_d0_1_2 : S2x100000x3.ReducesTo [0, 1, 2] S_
  h_S_ : 0 < S_.numel
  bcast_S_S64x3 : S_.BroadcastsInDim S64x3 (![] : Fin 0 → Fin S64x3.rank)
  reducesTo_S64x3_S_d0_1 : S64x3.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg11 : FVec F S64 .f32) (main_v33 : IVec S_ 1) : IVec S_ 1 :=
  let main_v34 : FVec F S64 .f32 := Host.absf main_arg11
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_cst_14 : FVec F S_ .f32 := constant S_ .f32 0x00000000#32
  let main_v39 : FVec F S64 .f32 := broadcastInDim S64 ![] bcast_S_S64 main_cst_14
  let main_v40 : IVec S64 1 := cmpf .oge main_arg11 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v38 main_v41
  main_v42

def fn_part1 {F : FTy → Type} [FloatOps F] (main_arg8 : FVec F S64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg9
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_v33

def fn {F : FTy → Type} [FloatOps F] (main_arg0 : FVec F S2x100000x3 .f32) (main_arg1 : IVec S2x100000 1) (main_arg2 : IVec S2x100000 32) (main_arg3 : FVec F S2x100000x3 .f32) (main_arg4 : IVec S2x100000 1) (main_arg5 : IVec S2x100000 32) (main_arg6 : FVec F S64x3 .f32) (main_arg7 : FVec F S64 .f32) (main_arg8 : FVec F S64 .f32) (main_arg9 : FVec F S64 .f32) (main_arg10 : FVec F S64 .f32) (main_arg11 : FVec F S64 .f32) : IVec S_ 1 :=
  let main_v0 : FVec F S2x100000x3 .f32 := Host.absf main_arg0
  let main_cst : FVec F S_ .f32 := constant S_ .f32 0x7F800000#32
  let main_v1 : FVec F S2x100000x3 .f32 := broadcastInDim S2x100000x3 ![] bcast_S_S2x100000x3 main_cst
  let main_v2 : IVec S2x100000x3 1 := cmpf .olt main_v0 main_v1
  let main_c : IVec S_ 1 := constantI S_ 1 1#1
  let main_v3 : IVec S_ 1 := (fun x v => Host.reduce IntOp.andi x v reducesTo_S2x100000x3_S_d0_1_2 h_S_) main_v2 main_c
  let main_v4 : FVec F S2x100000x3 .f32 := Host.absf main_arg3
  let main_cst_0 : FVec F S_ .f32 := constant S_ .f32 0x7F800000#32
  let main_v5 : FVec F S2x100000x3 .f32 := broadcastInDim S2x100000x3 ![] bcast_S_S2x100000x3 main_cst_0
  let main_v6 : IVec S2x100000x3 1 := cmpf .olt main_v4 main_v5
  let main_c_1 : IVec S_ 1 := constantI S_ 1 1#1
  let main_v7 : IVec S_ 1 := (fun x v => Host.reduce IntOp.andi x v reducesTo_S2x100000x3_S_d0_1_2 h_S_) main_v6 main_c_1
  let main_v8 : IVec S_ 1 := andi main_v3 main_v7
  let main_v9 : FVec F S64x3 .f32 := Host.absf main_arg6
  let main_cst_2 : FVec F S_ .f32 := constant S_ .f32 0x7F800000#32
  let main_v10 : FVec F S64x3 .f32 := broadcastInDim S64x3 ![] bcast_S_S64x3 main_cst_2
  let main_v11 : IVec S64x3 1 := cmpf .olt main_v9 main_v10
  let main_c_3 : IVec S_ 1 := constantI S_ 1 1#1
  let main_v12 : IVec S_ 1 := (fun x v => Host.reduce IntOp.andi x v reducesTo_S64x3_S_d0_1 h_S_) main_v11 main_c_3
  let main_v13 : IVec S_ 1 := andi main_v8 main_v12
  let main_v14 : FVec F S64 .f32 := Host.absf main_arg7
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg8 main_arg9 main_arg10 main_arg11 main_v13 main_v16
-- ==== Kernel.lean ====
abbrev S2x100000x3 : Shape := ⟨3, ![2, 100000, 3]⟩
abbrev S2x100000 : Shape := ⟨2, ![2, 100000]⟩
abbrev S64x3 : Shape := ⟨2, ![64, 3]⟩
abbrev S64 : Shape := ⟨1, ![64]⟩
abbrev S2x1x100000x3 : Shape := ⟨4, ![2, 1, 100000, 3]⟩
abbrev S2x2x100000x3 : Shape := ⟨4, ![2, 2, 100000, 3]⟩
abbrev S4x100000x3 : Shape := ⟨3, ![4, 100000, 3]⟩
abbrev S2x1x100000 : Shape := ⟨3, ![2, 1, 100000]⟩
abbrev S2x2x100000 : Shape := ⟨3, ![2, 2, 100000]⟩
abbrev S4x100000 : Shape := ⟨2, ![4, 100000]⟩
abbrev S4x3x100000 : Shape := ⟨3, ![4, 3, 100000]⟩
abbrev S_ : Shape := ⟨0, ![]⟩
abbrev S4x3x102400 : Shape := ⟨3, ![4, 3, 102400]⟩
abbrev S4x102400 : Shape := ⟨2, ![4, 102400]⟩
abbrev S4x1x102400 : Shape := ⟨3, ![4, 1, 102400]⟩
abbrev S64x1 : Shape := ⟨2, ![64, 1]⟩
abbrev S3x64 : Shape := ⟨2, ![3, 64]⟩
abbrev S4x102400x64 : Shape := ⟨3, ![4, 102400, 64]⟩
abbrev S1x3x4096 : Shape := ⟨3, ![1, 3, 4096]⟩
abbrev S1x1x4096 : Shape := ⟨3, ![1, 1, 4096]⟩
abbrev S1x4096x64 : Shape := ⟨3, ![1, 4096, 64]⟩
abbrev S3x4096 : Shape := ⟨2, ![3, 4096]⟩
abbrev S4096x64 : Shape := ⟨2, ![4096, 64]⟩
abbrev S1x64 : Shape := ⟨2, ![1, 64]⟩
abbrev S4096 : Shape := ⟨1, ![4096]⟩
abbrev S4096x1 : Shape := ⟨2, ![4096, 1]⟩
abbrev S4x409600x64 : Shape := ⟨3, ![4, 409600, 64]⟩
abbrev S4 : Shape := ⟨1, ![4]⟩
abbrev S4x1 : Shape := ⟨2, ![4, 1]⟩
abbrev S4x102400x1 : Shape := ⟨3, ![4, 102400, 1]⟩
abbrev S4x102400x2 : Shape := ⟨3, ![4, 102400, 2]⟩
abbrev S4x64x409600 : Shape := ⟨3, ![4, 64, 409600]⟩
abbrev S4x64x640x640 : Shape := ⟨4, ![4, 64, 640, 640]⟩

abbrev nBuf : Space → Nat
  | .hbm => 75
  | .vmem => 8
  | .smem => 0
  | _ => 0

abbrev bufTy : (tb : Table) → Fin (tcTables nBuf tb) → BufTy
  | .hbm, ⟨0, _⟩ => ⟨S2x100000x3, .f32⟩
  | .hbm, ⟨1, _⟩ => ⟨S2x100000, .i1⟩
  | .hbm, ⟨2, _⟩ => ⟨S2x100000, .i32⟩
  | .hbm, ⟨3, _⟩ => ⟨S2x100000x3, .f32⟩
  | .hbm, ⟨4, _⟩ => ⟨S2x100000, .i1⟩
  | .hbm, ⟨5, _⟩ => ⟨S2x100000, .i32⟩
  | .hbm, ⟨6, _⟩ => ⟨S64x3, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S2x1x100000x3, .f32⟩
  | .hbm, ⟨13, _⟩ => ⟨S2x1x100000x3, .f32⟩
  | .hbm, ⟨14, _⟩ => ⟨S2x2x100000x3, .f32⟩
  | .hbm, ⟨15, _⟩ => ⟨S4x100000x3, .f32⟩
  | .hbm, ⟨16, _⟩ => ⟨S2x1x100000, .i1⟩
  | .hbm, ⟨17, _⟩ => ⟨S2x1x100000, .i1⟩
  | .hbm, ⟨18, _⟩ => ⟨S2x2x100000, .i1⟩
  | .hbm, ⟨19, _⟩ => ⟨S4x100000, .i1⟩
  | .hbm, ⟨20, _⟩ => ⟨S2x1x100000, .i32⟩
  | .hbm, ⟨21, _⟩ => ⟨S2x1x100000, .i32⟩
  | .hbm, ⟨22, _⟩ => ⟨S2x2x100000, .i32⟩
  | .hbm, ⟨23, _⟩ => ⟨S4x100000, .i32⟩
  | .hbm, ⟨24, _⟩ => ⟨S4x3x100000, .f32⟩
  | .hbm, ⟨25, _⟩ => ⟨S_, .i32⟩
  | .hbm, ⟨26, _⟩ => ⟨S_, .f32⟩
  | .hbm, ⟨27, _⟩ => ⟨S4x3x102400, .f32⟩
  | .hbm, ⟨28, _⟩ => ⟨S4x100000, .f32⟩
  | .hbm, ⟨29, _⟩ => ⟨S_, .i32⟩
  | .hbm, ⟨30, _⟩ => ⟨S_, .f32⟩
  | .hbm, ⟨31, _⟩ => ⟨S4x102400, .f32⟩
  | .hbm, ⟨32, _⟩ => ⟨S4x1x102400, .f32⟩
  | .hbm, ⟨33, _⟩ => ⟨S_, .i32⟩
  | .hbm, ⟨34, _⟩ => ⟨S_, .i32⟩
  | .hbm, ⟨35, _⟩ => ⟨S4x102400, .i32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S64x1, .f32⟩
  | .hbm, ⟨44, _⟩ => ⟨S64x3, .f32⟩
  | .hbm, ⟨45, _⟩ => ⟨S64x3, .f32⟩
  | .hbm, ⟨46, _⟩ => ⟨S3x64, .f32⟩
  | .hbm, ⟨47, _⟩ => ⟨S64, .f32⟩
  | .hbm, ⟨48, _⟩ => ⟨S64, .f32⟩
  | .hbm, ⟨49, _⟩ => ⟨S4x102400x64, .f32⟩
  | .hbm, ⟨50, _⟩ => ⟨S_, .f32⟩
  | .hbm, ⟨51, _⟩ => ⟨S4x409600x64, .f32⟩
  | .hbm, ⟨52, _⟩ => ⟨S4, .i32⟩
  | .hbm, ⟨53, _⟩ => ⟨S4x1, .i32⟩
  | .hbm, ⟨54, _⟩ => ⟨S_, .i32⟩
  | .hbm, ⟨55, _⟩ => ⟨S4x1, .i32⟩
  | .hbm, ⟨56, _⟩ => ⟨S4x1, .i1⟩
  | .hbm, ⟨57, _⟩ => ⟨S_, .i32⟩
  | .hbm, ⟨58, _⟩ => ⟨S4x1, .i32⟩
  | .hbm, ⟨59, _⟩ => ⟨S4x1, .i32⟩
  | .hbm, ⟨60, _⟩ => ⟨S4x1, .i32⟩
  | .hbm, ⟨61, _⟩ => ⟨S_, .i32⟩
  | .hbm, ⟨62, _⟩ => ⟨S4x102400, .i32⟩
  | .hbm, ⟨63, _⟩ => ⟨S4x102400, .i1⟩
  | .hbm, ⟨64, _⟩ => ⟨S_, .i32⟩
  | .hbm, ⟨65, _⟩ => ⟨S4x102400, .i32⟩
  | .hbm, ⟨66, _⟩ => ⟨S4x102400, .i32⟩
  | .hbm, ⟨67, _⟩ => ⟨S4x102400, .i32⟩
  | .hbm, ⟨68, _⟩ => ⟨S4x102400, .i32⟩
  | .hbm, ⟨69, _⟩ => ⟨S4x102400x1, .i32⟩
  | .hbm, ⟨70, _⟩ => ⟨S4x102400x1, .i32⟩
  | .hbm, ⟨71, _⟩ => ⟨S4x102400x2, .i32⟩
  | .hbm, ⟨72, _⟩ => ⟨S4x409600x64, .f32⟩
  | .hbm, ⟨73, _⟩ => ⟨S4x64x409600, .f32⟩
  | .hbm, ⟨74, _⟩ => ⟨S4x64x640x640, .f32⟩
  | .local _ .vmem, ⟨0, _⟩ => ⟨S1x3x4096, .f32⟩
  | .local _ .vmem, ⟨1, _⟩ => ⟨S1x3x4096, .f32⟩
  | .local _ .vmem, ⟨2, _⟩ => ⟨S1x1x4096, .f32⟩
  | .local _ .vmem, ⟨3, _⟩ => ⟨S1x1x4096, .f32⟩
  | .local _ .vmem, ⟨4, _⟩ => ⟨S3x64, .f32⟩
  | .local _ .vmem, ⟨5, _⟩ => ⟨S64, .f32⟩
  | .local _ .vmem, ⟨6, _⟩ => ⟨S1x4096x64, .f32⟩
  | .local _ .vmem, ⟨7, _⟩ => ⟨S1x4096x64, .f32⟩
  | _, _ => ⟨S2x100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_call0_v0 : Ref sig .tc := ⟨.hbm, 26, rfl⟩
abbrev main_v13 : Ref sig .tc := ⟨.hbm, 27, rfl⟩
abbrev main_v14 : Ref sig .tc := ⟨.hbm, 28, rfl⟩
abbrev main_c_0 : Ref sig .tc := ⟨.hbm, 29, rfl⟩
abbrev main_call1_v0 : Ref sig .tc := ⟨.hbm, 30, rfl⟩
abbrev main_v15 : Ref sig .tc := ⟨.hbm, 31, rfl⟩
abbrev main_v16 : Ref sig .tc := ⟨.hbm, 32, rfl⟩
abbrev main_c_1 : Ref sig .tc := ⟨.hbm, 33, rfl⟩
abbrev main_call2_v0 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_3 : Ref sig .tc := ⟨.hbm, 54, rfl⟩
abbrev main_v34 : Ref sig .tc := ⟨.hbm, 55, rfl⟩
abbrev main_v35 : Ref sig .tc := ⟨.hbm, 56, rfl⟩
abbrev main_c_4 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_5 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4096x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S2x100000x3_S2x1x100000x3_0_2_3 : S2x100000x3.BroadcastsInDim S2x1x100000x3 (![0, 2, 3] : Fin 3 → Fin S2x1x100000x3.rank)
  concatenates_S2x1x100000x3_S2x1x100000x3_S2x2x100000x3_d1 : Shape.Concatenates [S2x1x100000x3, S2x1x100000x3] S2x2x100000x3 1
  shapeCasts_S2x2x100000x3_S4x100000x3 : S2x2x100000x3.ShapeCasts S4x100000x3
  bcast_S2x100000_S2x1x100000_0_2 : S2x100000.BroadcastsInDim S2x1x100000 (![0, 2] : Fin 2 → Fin S2x1x100000.rank)
  concatenates_S2x1x100000_S2x1x100000_S2x2x100000_d1 : Shape.Concatenates [S2x1x100000, S2x1x100000] S2x2x100000 1
  shapeCasts_S2x2x100000_S4x100000 : S2x2x100000.ShapeCasts S4x100000
  transposes_S4x100000x3_S4x3x100000_0_2_1 : S4x100000x3.Transposes [0, 2, 1] S4x3x100000
  pads_S4x3x100000_S4x3x102400_000_000_024000 : S4x3x100000.Pads (![0, 0, 0] : Fin 3 → Nat) ![0, 0, 2400] ![0, 0, 0] S4x3x102400
  h_S_ : 0 < S_.numel
  pads_S4x100000_S4x102400_000_024000 : S4x100000.Pads (![0, 0] : Fin 2 → Nat) ![0, 2400] ![0, 0] S4x102400
  bcast_S4x102400_S4x1x102400_0_2 : S4x102400.BroadcastsInDim S4x1x102400 (![0, 2] : Fin 2 → Fin S4x1x102400.rank)
  bcast_S_S64 : S_.BroadcastsInDim S64 (![] : Fin 0 → Fin S64.rank)
  bcast_S64_S64x1_0 : S64.BroadcastsInDim S64x1 (![0] : Fin 1 → Fin S64x1.rank)
  bcast_S64x1_S64x3_0_1 : S64x1.BroadcastsInDim S64x3 (![0, 1] : Fin 2 → Fin S64x3.rank)
  transposes_S64x3_S3x64_1_0 : S64x3.Transposes [1, 0] S3x64
  inb_S1x3x4096_S1x3x4096_0_0_0 : ∀ a, (![0, 0, 0] : Fin 3 → Nat) a + S1x3x4096.size a ≤ S1x3x4096.size a
  h_S1x3x4096 : 0 < S1x3x4096.numel
  shapeCasts_S1x3x4096_S3x4096 : S1x3x4096.ShapeCasts S3x4096
  bitsLt_bf16_f32 : FTy.bits .bf16 < FTy.bits .f32
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S4096x64 : S1x64.Broadcasts S4096x64
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S4096x1 : S4096.ShapeCasts S4096x1
  broadcasts_S4096x1_S4096x64 : S4096x1.Broadcasts S4096x64
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S4096x64_S1x4096x64 : S4096x64.ShapeCasts S1x4096x64
  bcast_S_S4x409600x64 : S_.BroadcastsInDim S4x409600x64 (![] : Fin 0 → Fin S4x409600x64.rank)
  bcast_S4_S4x1_0 : S4.BroadcastsInDim S4x1 (![0] : Fin 1 → Fin S4x1.rank)
  bcast_S_S4x1 : S_.BroadcastsInDim S4x1 (![] : Fin 0 → Fin S4x1.rank)
  bcast_S_S4x102400 : S_.BroadcastsInDim S4x102400 (![] : Fin 0 → Fin S4x102400.rank)
  bcast_S4x1_S4x102400_0_1 : S4x1.BroadcastsInDim S4x102400 (![0, 1] : Fin 2 → Fin S4x102400.rank)
  bcast_S4x102400_S4x102400x1_0_1 : S4x102400.BroadcastsInDim S4x102400x1 (![0, 1] : Fin 2 → Fin S4x102400x1.rank)
  concatenates_S4x102400x1_S4x102400x1_S4x102400x2_d2 : Shape.Concatenates [S4x102400x1, S4x102400x1] S4x102400x2 2
  transposes_S4x409600x64_S4x64x409600_0_2_1 : S4x409600x64.Transposes [0, 2, 1] S4x64x409600
  shapeCasts_S4x64x409600_S4x64x640x640 : S4x64x409600.ShapeCasts S4x64x640x640
  dot_S3x4096_S3x64_S4096x64_0_0_1_1_n_n_wf : DotDims.WF S3x4096 S3x64 S4096x64 [0] [0] [1] [1] [] []
  scatter_S4x409600x64_S4x102400x2_S4x102400x64_2_01_01_2_wf : ScatterDims.WF S4x409600x64 S4x102400x2 S4x102400x64 [2] [0, 1] [0, 1] 2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x4096.size a ≤ S4x3x102400.size a
  hwx0_0 : ∀ i : grid0.Coords, EltTy.bits .f32 = 32 ∨ (Rect.block (s := S4x3x102400) S1x3x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S4x1x102400.size a
  hwx0_1 : ∀ i : grid0.Coords, EltTy.bits .f32 = 32 ∨ (Rect.block (s := S4x1x102400) S1x1x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64.size a ≤ S3x64.size a
  hwx0_2 : ∀ i : grid0.Coords, EltTy.bits .f32 = 32 ∨ (Rect.block (s := S3x64) S3x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4096x64.size a ≤ S4x102400x64.size a
  hwx0_4 : ∀ i : grid0.Coords, EltTy.bits .f32 = 32 ∨ (Rect.block (s := S4x102400x64) S1x4096x64.size (cc0_transform_4 i) (hinb0_4 i)).WholeWords (EltTy.packing .f32)

variable [Facts₀]

def dot_S3x4096_S3x64_S4096x64_0_0_1_1_n_n : DotDims S3x4096 S3x64 S4096x64 where
  lhsContracting := [0]
  rhsContracting := [0]
  lhsNonContracting := [1]
  rhsNonContracting := [1]
  lhsBatch := []
  rhsBatch := []
  wf := dot_S3x4096_S3x64_S4096x64_0_0_1_1_n_n_wf
def scatter_S4x409600x64_S4x102400x2_S4x102400x64_2_01_01_2 : ScatterDims S4x409600x64 S4x102400x2 S4x102400x64 where
  updateWindowDims := [2]
  insertedWindowDims := [0, 1]
  scatterDimsToOperandDims := [0, 1]
  indexVectorDim := 2
  wf := scatter_S4x409600x64_S4x102400x2_S4x102400x64_2_01_01_2_wf

abbrev win0_0 : Pipeline.Window sig grid0 :=
  Pipeline.Window.ofSpec (Memref.whole main_v13) S1x3x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S3x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x4096x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x100000x3 : Shape := ⟨3, ![2, 100000, 3]⟩
abbrev S2x100000 : Shape := ⟨2, ![2, 100000]⟩
abbrev S64x3 : Shape := ⟨2, ![64, 3]⟩
abbrev S64 : Shape := ⟨1, ![64]⟩
abbrev S2x100000x64 : Shape := ⟨3, ![2, 100000, 64]⟩
abbrev S1x1x64 : Shape := ⟨3, ![1, 1, 64]⟩
abbrev S_ : Shape := ⟨0, ![]⟩
abbrev S2x100000x1 : Shape := ⟨3, ![2, 100000, 1]⟩
abbrev S2x409600x64 : Shape := ⟨3, ![2, 409600, 64]⟩
abbrev S2 : Shape := ⟨1, ![2]⟩
abbrev S2x1 : Shape := ⟨2, ![2, 1]⟩
abbrev S2x100000x2 : Shape := ⟨3, ![2, 100000, 2]⟩
abbrev S2x64x409600 : Shape := ⟨3, ![2, 64, 409600]⟩
abbrev S2x64x640x640 : Shape := ⟨4, ![2, 64, 640, 640]⟩
abbrev S2x1x64x640x640 : Shape := ⟨5, ![2, 1, 64, 640, 640]⟩
abbrev S2x2x64x640x640 : Shape := ⟨5, ![2, 2, 64, 640, 640]⟩
abbrev S4x64x640x640 : Shape := ⟨4, ![4, 64, 640, 640]⟩

abbrev nBuf : Space → Nat
  | .hbm => 116
  | .vmem => 0
  | .smem => 0
  | _ => 0

abbrev bufTy : (tb : Table) → Fin (tcTables nBuf tb) → BufTy
  | .hbm, ⟨0, _⟩ => ⟨S2x100000x3, .f32⟩
  | .hbm, ⟨1, _⟩ => ⟨S2x100000, .i1⟩
  | .hbm, ⟨2, _⟩ => ⟨S2x100000, .i32⟩
  | .hbm, ⟨3, _⟩ => ⟨S2x100000x3, .f32⟩
  | .hbm, ⟨4, _⟩ => ⟨S2x100000, .i1⟩
  | .hbm, ⟨5, _⟩ => ⟨S2x100000, .i32⟩
  | .hbm, ⟨6, _⟩ => ⟨S64x3, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S2x100000x64, .f32⟩
  | .hbm, ⟨13, _⟩ => ⟨S1x1x64, .f32⟩
  | .hbm, ⟨14, _⟩ => ⟨S2x100000x64, .f32⟩
  | .hbm, ⟨15, _⟩ => ⟨S2x100000x64, .f32⟩
  | .hbm, ⟨16, _⟩ => ⟨S1x1x64, .f32⟩
  | .hbm, ⟨17, _⟩ => ⟨S2x100000x64, .f32⟩
  | .hbm, ⟨18, _⟩ => ⟨S2x100000x64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S1x1x64, .f32⟩
  | .hbm, ⟨25, _⟩ => ⟨S2x100000x64, .f32⟩
  | .hbm, ⟨26, _⟩ => ⟨S2x100000x64, .f32⟩
  | .hbm, ⟨27, _⟩ => ⟨S1x1x64, .f32⟩
  | .hbm, ⟨28, _⟩ => ⟨S2x100000x64, .f32⟩
  | .hbm, ⟨29, _⟩ => ⟨S2x100000x64, .f32⟩
  | .hbm, ⟨30, _⟩ => ⟨S_, .f32⟩
  | .hbm, ⟨31, _⟩ => ⟨S2x100000x64, .f32⟩
  | .hbm, ⟨32, _⟩ => ⟨S2x100000x64, .f32⟩
  | .hbm, ⟨33, _⟩ => ⟨S2x100000x1, .i1⟩
  | .hbm, ⟨34, _⟩ => ⟨S2x100000x1, .f32⟩
  | .hbm, ⟨35, _⟩ => ⟨S2x100000x64, .f32⟩
  | .hbm, ⟨36, _⟩ => ⟨S2x100000x64, .f32⟩
  | .hbm, ⟨37, _⟩ => ⟨S2x100000x64, .f32⟩
  | .hbm, ⟨38, _⟩ => ⟨S1x1x64, .f32⟩
  | .hbm, ⟨39, _⟩ => ⟨S2x100000x64, .f32⟩
  | .hbm, ⟨40, _⟩ => ⟨S2x100000x64, .f32⟩
  | .hbm, ⟨41, _⟩ => ⟨S1x1x64, .f32⟩
  | .hbm, ⟨42, _⟩ => ⟨S2x100000x64, .f32⟩
  | .hbm, ⟨43, _⟩ => ⟨S2x100000x64, .f32⟩
  | .hbm, ⟨44, _⟩ => ⟨S_, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S64, .f32⟩
  | .hbm, ⟨49, _⟩ => ⟨S1x1x64, .f32⟩
  | .hbm, ⟨50, _⟩ => ⟨S2x100000x64, .f32⟩
  | .hbm, ⟨51, _⟩ => ⟨S2x100000x64, .f32⟩
  | .hbm, ⟨52, _⟩ => ⟨S1x1x64, .f32⟩
  | .hbm, ⟨53, _⟩ => ⟨S2x100000x64, .f32⟩
  | .hbm, ⟨54, _⟩ => ⟨S2x100000x64, .f32⟩
  | .hbm, ⟨55, _⟩ => ⟨S_, .f32⟩
  | .hbm, ⟨56, _⟩ => ⟨S2x100000x64, .f32⟩
  | .hbm, ⟨57, _⟩ => ⟨S2x100000x64, .f32⟩
  | .hbm, ⟨58, _⟩ => ⟨S2x100000x1, .i1⟩
  | .hbm, ⟨59, _⟩ => ⟨S2x100000x1, .f32⟩
  | .hbm, ⟨60, _⟩ => ⟨S2x100000x64, .f32⟩
  | .hbm, ⟨61, _⟩ => ⟨S2x100000x64, .f32⟩
  | .hbm, ⟨62, _⟩ => ⟨S_, .f32⟩
  | .hbm, ⟨63, _⟩ => ⟨S2x409600x64, .f32⟩
  | .hbm, ⟨64, _⟩ => ⟨S2, .i32⟩
  | .hbm, ⟨65, _⟩ => ⟨S2x1, .i32⟩
  | .hbm, ⟨66, _⟩ => ⟨S_, .i32⟩
  | .hbm, ⟨67, _⟩ => ⟨S2x1, .i32⟩
  | .hbm, ⟨68, _⟩ => ⟨S2x1, .i1⟩
  | .hbm, ⟨69, _⟩ => ⟨S_, .i32⟩
  | .hbm, ⟨70, _⟩ => ⟨S2x1, .i32⟩
  | .hbm, ⟨71, _⟩ => ⟨S2x1, .i32⟩
  | .hbm, ⟨72, _⟩ => ⟨S2x1, .i32⟩
  | .hbm, ⟨73, _⟩ => ⟨S_, .i32⟩
  | .hbm, ⟨74, _⟩ => ⟨S2x100000, .i32⟩
  | .hbm, ⟨75, _⟩ => ⟨S2x100000, .i1⟩
  | .hbm, ⟨76, _⟩ => ⟨S_, .i32⟩
  | .hbm, ⟨77, _⟩ => ⟨S2x100000, .i32⟩
  | .hbm, ⟨78, _⟩ => ⟨S2x100000, .i32⟩
  | .hbm, ⟨79, _⟩ => ⟨S2x100000, .i32⟩
  | .hbm, ⟨80, _⟩ => ⟨S2x100000, .i32⟩
  | .hbm, ⟨81, _⟩ => ⟨S2x100000x1, .i32⟩
  | .hbm, ⟨82, _⟩ => ⟨S2x100000x1, .i32⟩
  | .hbm, ⟨83, _⟩ => ⟨S2x100000x2, .i32⟩
  | .hbm, ⟨84, _⟩ => ⟨S2x409600x64, .f32⟩
  | .hbm, ⟨85, _⟩ => ⟨S2x64x409600, .f32⟩
  | .hbm, ⟨86, _⟩ => ⟨S2x64x640x640, .f32⟩
  | .hbm, ⟨87, _⟩ => ⟨S_, .f32⟩
  | .hbm, ⟨88, _⟩ => ⟨S2x409600x64, .f32⟩
  | .hbm, ⟨89, _⟩ => ⟨S2, .i32⟩
  | .hbm, ⟨90, _⟩ => ⟨S2x1, .i32⟩
  | .hbm, ⟨91, _⟩ => ⟨S_, .i32⟩
  | .hbm, ⟨92, _⟩ => ⟨S2x1, .i32⟩
  | .hbm, ⟨93, _⟩ => ⟨S2x1, .i1⟩
  | .hbm, ⟨94, _⟩ => ⟨S_, .i32⟩
  | .hbm, ⟨95, _⟩ => ⟨S2x1, .i32⟩
  | .hbm, ⟨96, _⟩ => ⟨S2x1, .i32⟩
  | .hbm, ⟨97, _⟩ => ⟨S2x1, .i32⟩
  | .hbm, ⟨98, _⟩ => ⟨S_, .i32⟩
  | .hbm, ⟨99, _⟩ => ⟨S2x100000, .i32⟩
  | .hbm, ⟨100, _⟩ => ⟨S2x100000, .i1⟩
  | .hbm, ⟨101, _⟩ => ⟨S_, .i32⟩
  | .hbm, ⟨102, _⟩ => ⟨S2x100000, .i32⟩
  | .hbm, ⟨103, _⟩ => ⟨S2x100000, .i32⟩
  | .hbm, ⟨104, _⟩ => ⟨S2x100000, .i32⟩
  | .hbm, ⟨105, _⟩ => ⟨S2x100000, .i32⟩
  | .hbm, ⟨106, _⟩ => ⟨S2x100000x1, .i32⟩
  | .hbm, ⟨107, _⟩ => ⟨S2x100000x1, .i32⟩
  | .hbm, ⟨108, _⟩ => ⟨S2x100000x2, .i32⟩
  | .hbm, ⟨109, _⟩ => ⟨S2x409600x64, .f32⟩
  | .hbm, ⟨110, _⟩ => ⟨S2x64x409600, .f32⟩
  | .hbm, ⟨111, _⟩ => ⟨S2x64x640x640, .f32⟩
  | .hbm, ⟨112, _⟩ => ⟨S2x1x64x640x640, .f32⟩
  | .hbm, ⟨113, _⟩ => ⟨S2x1x64x640x640, .f32⟩
  | .hbm, ⟨114, _⟩ => ⟨S2x2x64x640x640, .f32⟩
  | .hbm, ⟨115, _⟩ => ⟨S4x64x640x640, .f32⟩
  | _, _ => ⟨S2x100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_call0_cst : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call1_cst : Ref sig .tc := ⟨.hbm, 55, rfl⟩
abbrev main_call1_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_1 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c : Ref sig .tc := ⟨.hbm, 66, rfl⟩
abbrev main_v47 : Ref sig .tc := ⟨.hbm, 67, rfl⟩
abbrev main_v48 : Ref sig .tc := ⟨.hbm, 68, rfl⟩
abbrev main_c_2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_3 : Ref sig .tc := ⟨.hbm, 73, rfl⟩
abbrev main_v52 : Ref sig .tc := ⟨.hbm, 74, rfl⟩
abbrev main_v53 : Ref sig .tc := ⟨.hbm, 75, rfl⟩
abbrev main_c_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_c_6 : Ref sig .tc := ⟨.hbm, 91, rfl⟩
abbrev main_v67 : Ref sig .tc := ⟨.hbm, 92, rfl⟩
abbrev main_v68 : Ref sig .tc := ⟨.hbm, 93, rfl⟩
abbrev main_c_7 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_8 : Ref sig .tc := ⟨.hbm, 98, rfl⟩
abbrev main_v72 : Ref sig .tc := ⟨.hbm, 99, rfl⟩
abbrev main_v73 : Ref sig .tc := ⟨.hbm, 100, rfl⟩
abbrev main_c_9 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S2x100000x64_0_1_2 : S1x1x64.BroadcastsInDim S2x100000x64 (![0, 1, 2] : Fin 3 → Fin S2x100000x64.rank)
  bcast_S_S64 : S_.BroadcastsInDim S64 (![] : Fin 0 → Fin S64.rank)
  bcast_S_S2x100000x64 : S_.BroadcastsInDim S2x100000x64 (![] : Fin 0 → Fin S2x100000x64.rank)
  bcast_S2x100000_S2x100000x1_0_1 : S2x100000.BroadcastsInDim S2x100000x1 (![0, 1] : Fin 2 → Fin S2x100000x1.rank)
  bcast_S2x100000x1_S2x100000x64_0_1_2 : S2x100000x1.BroadcastsInDim S2x100000x64 (![0, 1, 2] : Fin 3 → Fin S2x100000x64.rank)
  bcast_S_S2x409600x64 : S_.BroadcastsInDim S2x409600x64 (![] : Fin 0 → Fin S2x409600x64.rank)
  bcast_S2_S2x1_0 : S2.BroadcastsInDim S2x1 (![0] : Fin 1 → Fin S2x1.rank)
  bcast_S_S2x1 : S_.BroadcastsInDim S2x1 (![] : Fin 0 → Fin S2x1.rank)
  bcast_S_S2x100000 : S_.BroadcastsInDim S2x100000 (![] : Fin 0 → Fin S2x100000.rank)
  bcast_S2x1_S2x100000_0_1 : S2x1.BroadcastsInDim S2x100000 (![0, 1] : Fin 2 → Fin S2x100000.rank)
  concatenates_S2x100000x1_S2x100000x1_S2x100000x2_d2 : Shape.Concatenates [S2x100000x1, S2x100000x1] S2x100000x2 2
  transposes_S2x409600x64_S2x64x409600_0_2_1 : S2x409600x64.Transposes [0, 2, 1] S2x64x409600
  shapeCasts_S2x64x409600_S2x64x640x640 : S2x64x409600.ShapeCasts S2x64x640x640
  bcast_S2x64x640x640_S2x1x64x640x640_0_2_3_4 : S2x64x640x640.BroadcastsInDim S2x1x64x640x640 (![0, 2, 3, 4] : Fin 4 → Fin S2x1x64x640x640.rank)
  concatenates_S2x1x64x640x640_S2x1x64x640x640_S2x2x64x640x640_d1 : Shape.Concatenates [S2x1x64x640x640, S2x1x64x640x640] S2x2x64x640x640 1
  shapeCasts_S2x2x64x640x640_S4x64x640x640 : S2x2x64x640x640.ShapeCasts S4x64x640x640
  dot_S2x100000x3_S64x3_S2x100000x64_2_1_01_0_n_n_wf : DotDims.WF S2x100000x3 S64x3 S2x100000x64 [2] [1] [0, 1] [0] [] []
  scatter_S2x409600x64_S2x100000x2_S2x100000x64_2_01_01_2_wf : ScatterDims.WF S2x409600x64 S2x100000x2 S2x100000x64 [2] [0, 1] [0, 1] 2

variable [Facts₀]

def dot_S2x100000x3_S64x3_S2x100000x64_2_1_01_0_n_n : DotDims S2x100000x3 S64x3 S2x100000x64 where
  lhsContracting := [2]
  rhsContracting := [1]
  lhsNonContracting := [0, 1]
  rhsNonContracting := [0]
  lhsBatch := []
  rhsBatch := []
  wf := dot_S2x100000x3_S64x3_S2x100000x64_2_1_01_0_n_n_wf
def scatter_S2x409600x64_S2x100000x2_S2x100000x64_2_01_01_2 : ScatterDims S2x409600x64 S2x100000x2 S2x100000x64 where
  updateWindowDims := [2]
  insertedWindowDims := [0, 1]
  scatterDimsToOperandDims := [0, 1]
  indexVectorDim := 2
  wf := scatter_S2x409600x64_S2x100000x2_S2x100000x64_2_01_01_2_wf

class Facts : Prop extends Facts₀ where

variable [Facts]
-- ==== Proof.KTerms.lean ====
/-
  What the kernel's host program builds around its one launch, as functions of the argument arrays.

  Before the launch: the two time steps' coordinates, masks and cell numbers are stacked on a new axis behind the batch
  axis and that axis merged with the batch axis (row `2·b + t`); the coordinates are transposed feature-major; the point
  axis is padded from 100000 to 102400 with zero coordinates, zero mask and cell number zero; the batch normalisation is
  folded into the weights (transposed to `[3, 64]`) and the bias. After the launch: the scatter indices pair every point's
  row number (a negative one counted from the end: none is) with its cell number (a negative one counted from the end),
  the embeddings are added into a zero `[4, 409600, 64]` array at those indices, and the result is transposed and its
  cell axis split 640 × 640.
-/
import proofs.«150501_j71313636983306_2_alg».proof.Proof.Gen.KernelIdeal
import Idealize.ShloMosaic.PureOps.Ideal

noncomputable section

namespace Cert.Pillar.KTerms

open Cert.KernelIdeal Cert.KernelIdeal.Facts₀ Idealize.ShloMosaic

/-- The two time steps' coordinates stacked: row `2·b + t`. -/
def stackPcl (a0 a3 : FVec Ideal S2x100000x3 .f32) : FVec Ideal S4x100000x3 .f32 :=
  shapeCast S4x100000x3 (concatenate S2x2x100000x3 1
    [⟨S2x1x100000x3, broadcastInDim S2x1x100000x3 ![0, 2, 3] bcast_S2x100000x3_S2x1x100000x3_0_2_3 a0⟩,
     ⟨S2x1x100000x3, broadcastInDim S2x1x100000x3 ![0, 2, 3] bcast_S2x100000x3_S2x1x100000x3_0_2_3 a3⟩]
    concatenates_S2x1x100000x3_S2x1x100000x3_S2x2x100000x3_d1) shapeCasts_S2x2x100000x3_S4x100000x3

/-- Two `[2, 100000]` arrays of words stacked: row `2·b + t`. -/
def stackW {w : Nat} (a b : IVec S2x100000 w) : IVec S4x100000 w :=
  shapeCast S4x100000 (concatenate S2x2x100000 1
    [⟨S2x1x100000, broadcastInDim S2x1x100000 ![0, 2] bcast_S2x100000_S2x1x100000_0_2 a⟩,
     ⟨S2x1x100000, broadcastInDim S2x1x100000 ![0, 2] bcast_S2x100000_S2x1x100000_0_2 b⟩]
    concatenates_S2x1x100000_S2x1x100000_S2x2x100000_d1) shapeCasts_S2x2x100000_S4x100000

/-- The launch's first operand: the stacked coordinates, feature-major, the point axis padded with zeros. -/
def pclPad (a0 a3 : FVec Ideal S2x100000x3 .f32) : FVec Ideal S4x3x102400 .f32 :=
  pad S4x3x102400 ![0, 0, 0] ![0, 0, 2400] ![0, 0, 0]
    (transpose S4x3x100000 [0, 2, 1] (stackPcl a0 a3) transposes_S4x100000x3_S4x3x100000_0_2_1)
    (sitofp (F := Ideal) .f32 (constantI S_ 32 0#32)) pads_S4x3x100000_S4x3x102400_000_000_024000 h_S_

/-- The launch's second operand: the stacked masks as numbers, the point axis padded with zeros, a unit axis inserted. -/
def maskPad (a1 a4 : IVec S2x100000 1) : FVec Ideal S4x1x102400 .f32 :=
  broadcastInDim S4x1x102400 ![0, 2] bcast_S4x102400_S4x1x102400_0_2
    (pad S4x102400 ![0, 0] ![0, 2400] ![0, 0] (uitofp (F := Ideal) .f32 (stackW a1 a4))
      (sitofp (F := Ideal) .f32 (constantI S_ 32 0#32)) pads_S4x100000_S4x102400_000_024000 h_S_)

/-- The stacked cell numbers, the point axis padded with cell number zero. -/
def cellPad (a2 a5 : IVec S2x100000 32) : IVec S4x102400 32 :=
  pad S4x102400 ![0, 0] ![0, 2400] ![0, 0] (stackW a2 a5) (id (constantI S_ 32 0#32))
    pads_S4x100000_S4x102400_000_024000 h_S_

/-- The normalisation's scale row γ / √(σ² + ε). -/
def scaleRow (a8 a11 : FVec Ideal S64 .f32) : FVec Ideal S64 .f32 :=
  Host.divf a8 (Host.sqrt (addf a11 (broadcastInDim S64 ![] bcast_S_S64 (constant (F := Ideal) S_ .f32 0x3727C5AC#32))))

/-- The launch's third operand: the weights scaled per output channel, transposed to `[3, 64]`. -/
def wFold (a6 : FVec Ideal S64x3 .f32) (a8 a11 : FVec Ideal S64 .f32) : FVec Ideal S3x64 .f32 :=
  transpose S3x64 [1, 0]
    (mulf a6 (broadcastInDim S64x3 ![0, 1] bcast_S64x1_S64x3_0_1 (broadcastInDim S64x1 ![0] bcast_S64_S64x1_0 (scaleRow a8 a11))))
    transposes_S64x3_S3x64_1_0

/-- The launch's fourth operand: the folded bias `b·s + (β − μ·s)`. -/
def bFold (a7 a8 a9 a10 a11 : FVec Ideal S64 .f32) : FVec Ideal S64 .f32 :=
  addf (mulf a7 (scaleRow a8 a11)) (subf a9 (mulf a10 (scaleRow a8 a11)))

/-- The row numbers `0 … 3` as a column, a negative one counted from the end. -/
def rowCol : IVec S4x1 32 :=
  select (cmpi .slt (broadcastInDim S4x1 ![0] bcast_S4_S4x1_0 (iotaInDim S4 32 0))
      (broadcastInDim S4x1 ![] bcast_S_S4x1 (constantI S_ 32 0#32)))
    (addi (broadcastInDim S4x1 ![0] bcast_S4_S4x1_0 (iotaInDim S4 32 0)) (broadcastInDim S4x1 ![] bcast_S_S4x1 (constantI S_ 32 4#32)))
    (broadcastInDim S4x1 ![0] bcast_S4_S4x1_0 (iotaInDim S4 32 0))

/-- The cell numbers, a negative one counted from the end of the 409600 cells. -/
def cellNorm (v17 : IVec S4x102400 32) : IVec S4x102400 32 :=
  select (cmpi .slt v17 (broadcastInDim S4x102400 ![] bcast_S_S4x102400 (constantI S_ 32 0#32)))
    (addi v17 (broadcastInDim S4x102400 ![] bcast_S_S4x102400 (constantI S_ 32 409600#32))) v17

/-- The scatter indices: for every point its row number and its cell number. -/
def scatIdx (v17 : IVec S4x102400 32) : IVec S4x102400x2 32 :=
  concatenate S4x102400x2 2
    [⟨S4x102400x1, broadcastInDim S4x102400x1 ![0, 1] bcast_S4x102400_S4x102400x1_0_1
        (broadcastInDim S4x102400 ![0, 1] bcast_S4x1_S4x102400_0_1 rowCol)⟩,
     ⟨S4x102400x1, broadcastInDim S4x102400x1 ![0, 1] bcast_S4x102400_S4x102400x1_0_1 (cellNorm v17)⟩]
    concatenates_S4x102400x1_S4x102400x1_S4x102400x2_d2

/-- The host program after the launch: the embeddings `E` added into the zero grid at the scatter indices, transposed,
    the cell axis split. -/
def tail (v17 : IVec S4x102400 32) (E : FVec Ideal S4x102400x64 .f32) : FVec Ideal S4x64x640x640 .f32 :=
  shapeCast S4x64x640x640
    (transpose S4x64x409600 [0, 2, 1]
      (Host.scatterAdd scatter_S4x409600x64_S4x102400x2_S4x102400x64_2_01_01_2
        (broadcastInDim S4x409600x64 ![] bcast_S_S4x409600x64 (constant (F := Ideal) S_ .f32 0x00000000#32)) (scatIdx v17) E)
      transposes_S4x409600x64_S4x64x409600_0_2_1) shapeCasts_S4x64x409600_S4x64x640x640

end Cert.Pillar.KTerms

end
-- ==== Proof.KV.lean ====
/-
  The kernel's host program read back: what the launch finds in its four operand arrays and in the padded cell numbers,
  and what the program's result holds after the launch, each as the function of the argument arrays (and, for the result,
  of the array of embeddings the launch leaves) that the program's lines compose.
-/
import proofs.«150501_j71313636983306_2_alg».proof.Proof.Gen.KernelIdeal.Frame
import proofs.«150501_j71313636983306_2_alg».proof.Proof.KTerms
import Idealize.ShloMosaic.Lib.StableHlo.Run
import Idealize.ShloMosaic.PureOps.Ideal

set_option maxRecDepth 16384

noncomputable section

namespace Cert.Pillar.KV

open Cert.KernelIdeal Cert.KernelIdeal.Gen Idealize.ShloMosaic Idealize.ShloMosaic.TcCoe Idealize.SL.Sem
open Idealize.ShloMosaic.StableHlo

/-- Each line's result at its own buffer is the line's function of its operands' contents, and any other buffer keeps
    its contents: rewritten wherever it occurs, also inside the list of a concatenation's pieces. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ) (c : Dev nD)

/-- The launch's first operand: the padded feature-major coordinates. -/
theorem V_v13 : V m c main_v13
    = KTerms.pclPad (m ((c.tc : Thread nD τ).loc main_arg0)) (m ((c.tc : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  results_rw
  rfl

/-- The launch's second operand: the padded masks. -/
theorem V_v16 : V m c main_v16
    = KTerms.maskPad (m ((c.tc : Thread nD τ).loc main_arg1)) (m ((c.tc : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  results_rw
  rfl

/-- The padded cell numbers. -/
theorem V_v17 : V m c main_v17
    = KTerms.cellPad (m ((c.tc : Thread nD τ).loc main_arg2)) (m ((c.tc : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  results_rw
  rfl

/-- The launch's third operand: the folded weights. -/
theorem V_v27 : V m c main_v27
    = KTerms.wFold (m ((c.tc : Thread nD τ).loc main_arg6)) (m ((c.tc : Thread nD τ).loc main_arg8))
        (m ((c.tc : Thread nD τ).loc main_arg11)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The launch's fourth operand: the folded bias. -/
theorem V_v29 : V m c main_v29
    = KTerms.bFold (m ((c.tc : Thread nD τ).loc main_arg7)) (m ((c.tc : Thread nD τ).loc main_arg8))
        (m ((c.tc : Thread nD τ).loc main_arg9)) (m ((c.tc : Thread nD τ).loc main_arg10))
        (m ((c.tc : Thread nD τ).loc main_arg11)) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

end Cert.Pillar.KV

end
-- ==== Proof.KTail.lean ====
/-
  The kernel's host program after the launch, read back: the program's result is the scatter, transposition and split of
  the array of embeddings the launch leaves, at the padded cell numbers the lines before the launch built.
-/
import proofs.«150501_j71313636983306_2_alg».proof.Proof.Gen.KernelIdeal.Frame
import proofs.«150501_j71313636983306_2_alg».proof.Proof.KTerms
import Idealize.ShloMosaic.Lib.StableHlo.Run
import Idealize.ShloMosaic.PureOps.Ideal

set_option maxRecDepth 16384

noncomputable section

namespace Cert.Pillar.KTail

open Cert.KernelIdeal Cert.KernelIdeal.Gen Idealize.ShloMosaic Idealize.ShloMosaic.TcCoe Idealize.SL.Sem
open Idealize.ShloMosaic.StableHlo

/-- Each line's result at its own buffer is the line's function of its operands' contents, and any other buffer keeps
    its contents: rewritten wherever it occurs, also inside the list of a concatenation's pieces. -/
macro "results_rw" : tactic =>
  `(tactic| (repeat (first
               | rw [nullary_result] | rw [unary_result] | rw [binary_result] | rw [ternary_result] | rw [quaternary_result]
               | rw [reshape_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide))))

variable (m : (ℓ : Loc nD τ sig) → Buf (Elt Ideal) ℓ) (c : Dev nD)

set_option maxHeartbeats 4000000 in
/-- The lines that follow the launch, from any contents `W` of the buffers: the result is the scatter, transposition and
    split of the launch's array at the padded cell numbers. -/
theorem tail_after (W : Valuation τ sig (Elt Ideal)) :
    StableHlo.after (hostOps1 (F := Ideal)) W (Proc.devRef .tc main_v50)
      = KTerms.tail (W (Proc.devRef .tc main_v17)) (W (Proc.devRef .tc main_v30)) := by
  simp only [Gen.hostOps1]
  after_results_simp
  results_rw
  rfl

/-- The one stretch of lines after the launch, as a list of stretches flattened. -/
theorem flat : ([hostOps1] : List (List (HloOp τ sig (Elt Ideal)))).flatten = hostOps1 := by
  simp only [List.flatten_cons, List.flatten_nil, List.append_nil]

/-- The program's result after the lines that follow the launch. -/
theorem result_eq : Pipeline.afterTail₀ cfgs (dats m) 0 (V0 m) [hostOps1] c main_v50
    = KTerms.tail (V m c main_v17) ((dats m 0 c).arrAt 4 cfg0.N) := by
  unfold Pipeline.afterTail₀
  rw [flat]
  refine (tail_after _).trans ?_
  exact congrArg₂ KTerms.tail (Pipeline.withArrays_of_ne spec0 c (V0 m c) _ main_v17 (by decide))
    (Pipeline.withArrays_arr spec0 launch0.win.arr_inj c (V0 m c) _ 4)

end Cert.Pillar.KTail

end
-- ==== Proof.KArr.lean ====
/-
  The array of embeddings the kernel's launch leaves, as a function of its four operand arrays: entry `(r, n, d)` is
    max (Σ_f coords(r, f, n) · weights(f, d) + bias(d), 0) · mask(r, 0, n).
-/
import proofs.«150501_j71313636983306_2_alg».proof.Proof.KTerms
import Idealize.ShloMosaic.Lib.ValueIdx

noncomputable section

open scoped BigOperators

namespace Cert.Pillar

open Cert.KernelIdeal Idealize.ShloMosaic Idealize.ShloMosaic.ValueIdx

/-- The embeddings of all 4 × 102400 (padded) points from the launch's operands. -/
def embArr (A0 : FVec Ideal S4x3x102400 .f32) (A1 : FVec Ideal S4x1x102400 .f32) (A2 : FVec Ideal S3x64 .f32)
    (A3 : FVec Ideal S64 .f32) : FVec Ideal S4x102400x64 .f32 := fun i =>
  max ((∑ f : Fin 3, A0 (ix3 (i 0) f (i 1)) * A2 (ix2 f (i 2))) + A3 (ix1 (i 2))) 0 * A1 (ix3 (i 0) (0 : Fin 1) (i 1))

end Cert.Pillar

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.KBody.lean ====
/-
  The kernel body at one entry of its block.

  One grid point handles 4096 points of one batch row: a `[1, 3, 4096]` block of coordinates (feature-major), a
  `[1, 1, 4096]` block of mask values, the `[3, 64]` weights and the `[64]` bias. Entry `(0, r, d)` of what it stores is
    max (Σ_f coords(0, f, r) · weights(f, d) + bias(d), 0) · mask(0, 0, r):
  the product contracts the FIRST axes of both operands, into a zero accumulator; the bias row is broadcast down the
  rows, the mask column along them; the changes of float format are the identity on the extended reals.
-/
import proofs.«150501_j71313636983306_2_alg».proof.Proof.Gen.KernelIdeal.Skeleton
import proofs.«150501_j71313636983306_2_alg».proof.Proof.LibRowBlocks
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Pillar.KBody

open Cert.KernelIdeal Cert.KernelIdeal.Gen Idealize.ShloMosaic Idealize.ShloMosaic.ValueIdx Cert.RowBlocks

/-- `lᵀ · r` at rank 2: the FIRST axes contracted, at `(q, d)` the sum over `p` of `l (p, q) · r (p, d)`. -/
theorem aTb_sum {M K N : ℕ} (D : DotDims ⟨2, ![K, M]⟩ ⟨2, ![K, N]⟩ ⟨2, ![M, N]⟩)
    (h1 : D.lhsContracting = [0]) (h2 : D.rhsContracting = [0]) (h3 : D.lhsNonContracting = [1])
    (h4 : D.rhsNonContracting = [1]) (h5 : D.lhsBatch = []) (h6 : D.rhsBatch = [])
    (l : (⟨2, ![K, M]⟩ : Shape).Idx → EReal) (r : (⟨2, ![K, N]⟩ : Shape).Idx → EReal) (q : Fin M) (d : Fin N) :
    ∑ k : D.contr.Idx, l (D.lhsIdx (ix2 q d) k) * r (D.rhsIdx (ix2 q d) k) = ∑ p : Fin K, l (ix2 p q) * r (ix2 p d) := by
  obtain ⟨lc, rc, ln, rn, lb, rb, wf⟩ := D
  dsimp only at h1 h2 h3 h4 h5 h6
  subst h1 h2 h3 h4 h5 h6
  generalize hD : (⟨[0], [0], [1], [1], [], [], wf⟩ : DotDims ⟨2, ![K, M]⟩ ⟨2, ![K, N]⟩ ⟨2, ![M, N]⟩) = D
  have hrank : D.contr.rank = 1 := by subst hD; rfl
  have hs : D.contr.size ⟨0, by omega⟩ = K := by subst hD; rfl
  have hlc : D.lhsContracting = [0] := by subst hD; rfl
  have hrc : D.rhsContracting = [0] := by subst hD; rfl
  refine contr_sum D K hrank hs l r (ix2 q d) (fun p => ix2 p q) (fun p => ix2 p d) (fun k => ?_) (fun k => ?_)
  · have hk := contrEquiv1_symm_val D K hrank hs k
    exact funext fun a => Fin.ext (by
      match a with
      | ⟨0, _⟩ => exact (D.lhsIdx_val_of_single hlc _ _).trans hk
      | ⟨1, _⟩ =>
        subst hD
        rfl)
  · have hk := contrEquiv1_symm_val D K hrank hs k
    exact funext fun a => Fin.ext (by
      match a with
      | ⟨0, _⟩ => exact (D.rhsIdx_val_of_single hrc _ _).trans hk
      | ⟨1, _⟩ =>
        subst hD
        rfl)

/-- The matrix unit's `lᵀ · r` into a zero accumulator, read at `(q, d)`, for operands of any float formats. -/
theorem matmul_aTb_apply {M K N : ℕ} {φ₁ φ₂ : FTy} (D : DotDims ⟨2, ![K, M]⟩ ⟨2, ![K, N]⟩ ⟨2, ![M, N]⟩)
    (h1 : D.lhsContracting = [0]) (h2 : D.rhsContracting = [0]) (h3 : D.lhsNonContracting = [1])
    (h4 : D.rhsNonContracting = [1]) (h5 : D.lhsBatch = []) (h6 : D.rhsBatch = [])
    (prec : Option ContractPrecision) (l : FVec Ideal ⟨2, ![K, M]⟩ φ₁) (r : FVec Ideal ⟨2, ![K, N]⟩ φ₂)
    (q : Fin M) (d : Fin N) :
    matmul (F := Ideal) D prec l r (constant ⟨2, ![M, N]⟩ .f32 0x00000000#32) (ix2 q d)
      = ∑ p : Fin K, l (ix2 p q) * r (ix2 p d) :=
  (Ideal.matmul_constant_zero_apply D prec l r (ix2 q d)).trans (aTb_sum D h1 h2 h3 h4 h5 h6 l r q d)

/-- ENTRY `(0, r, d)` OF THE BODY'S STORE from the blocks it loads. -/
theorem pay_apply (x0 : Vec Ideal S1x3x4096 .f32) (x2 : Vec Ideal S3x64 .f32) (x3 : Vec Ideal S64 .f32)
    (x1 : Vec Ideal S1x1x4096 .f32) (r : Fin 4096) (d : Fin 64) :
    k0_pay1 (F := Ideal) x0 x2 x3 x1 (ix3 (0 : Fin 1) r d)
      = max ((∑ f : Fin 3, x0 (ix3 (0 : Fin 1) f r) * x2 (ix2 f d)) + x3 (ix1 d)) 0 * x1 (ix3 (0 : Fin 1) (0 : Fin 1) r) := by
  unfold k0_pay1
  -- the store's value is the [4096, 64] product viewed [1, 4096, 64]: entry (0, r, d) is entry (r, d)
  refine (shapeCast_apply _ shapeCasts_S4096x64_S1x4096x64 (ix3 (0 : Fin 1) r d) (ix2 r d) (by
    rw [Shape.rowMajor_val_two, Shape.rowMajor_val_three]
    show r.val * 64 + d.val = ((0 : ℕ) * 4096 + r.val) * 64 + d.val
    omega)).trans ?_
  -- the contraction over the three features
  have hmm : matmul (F := Ideal) dot_S3x4096_S3x64_S4096x64_0_0_1_1_n_n none
        (truncf (F := Ideal) .bf16 (shapeCast S3x4096 x0 shapeCasts_S1x3x4096_S3x4096) bitsLt_bf16_f32)
        (truncf (F := Ideal) .bf16 (shapeCast S3x64 x2 shapeCasts_S3x64_S3x64) bitsLt_bf16_f32)
        (constant S4096x64 .f32 0x00000000#32) (ix2 r d)
      = ∑ f : Fin 3, x0 (ix3 (0 : Fin 1) f r) * x2 (ix2 f d) := by
    refine (matmul_aTb_apply dot_S3x4096_S3x64_S4096x64_0_0_1_1_n_n rfl rfl rfl rfl rfl rfl none _ _ r d).trans ?_
    refine Finset.sum_congr rfl fun f _ => ?_
    have e0 : shapeCast S3x4096 x0 shapeCasts_S1x3x4096_S3x4096 (ix2 f r) = x0 (ix3 (0 : Fin 1) f r) :=
      shapeCast_apply x0 shapeCasts_S1x3x4096_S3x4096 (ix2 f r) (ix3 (0 : Fin 1) f r) (by
        rw [Shape.rowMajor_val_three, Shape.rowMajor_val_two]
        show ((0 : ℕ) * 3 + f.val) * 4096 + r.val = f.val * 4096 + r.val
        omega)
    have e2 : shapeCast S3x64 x2 shapeCasts_S3x64_S3x64 (ix2 f d) = x2 (ix2 f d) :=
      shapeCast_apply x2 shapeCasts_S3x64_S3x64 (ix2 f d) (ix2 f d) rfl
    show shapeCast S3x4096 x0 shapeCasts_S1x3x4096_S3x4096 (ix2 f r) * shapeCast S3x64 x2 shapeCasts_S3x64_S3x64 (ix2 f d) = _
    rw [e0, e2]
  -- the bias row, broadcast down the rows
  have hb : broadcastTo S4096x64 (shapeCast S1x64 (shapeCast S64 x3 shapeCasts_S64_S64) shapeCasts_S64_S1x64)
        broadcasts_S1x64_S4096x64 (ix2 r d) = x3 (ix1 d) := by
    refine (broadcastTo_apply _ broadcasts_S1x64_S4096x64 (ix2 r d) (ix2 (0 : Fin 1) d) (fun ax => ?_)).trans ?_
    · match ax with
      | ⟨0, _⟩ => rfl
      | ⟨1, _⟩ => rfl
    · refine (shapeCast_apply _ shapeCasts_S64_S1x64 (ix2 (0 : Fin 1) d) (ix1 d) (by
        rw [Shape.rowMajor_val_one, Shape.rowMajor_val_two]
        show d.val = (0 : ℕ) * 64 + d.val
        omega)).trans ?_
      exact shapeCast_apply x3 shapeCasts_S64_S64 (ix1 d) (ix1 d) rfl
  -- the mask column, broadcast along the rows
  have hk : broadcastTo S4096x64 (shapeCast S4096x1 (shapeCast S4096 x1 shapeCasts_S1x1x4096_S4096) shapeCasts_S4096_S4096x1)
        broadcasts_S4096x1_S4096x64 (ix2 r d) = x1 (ix3 (0 : Fin 1) (0 : Fin 1) r) := by
    refine (broadcastTo_col_apply _ broadcasts_S4096x1_S4096x64 r d).trans ?_
    refine (shapeCast_col_apply _ shapeCasts_S4096_S4096x1 r (0 : Fin 1)).trans ?_
    exact shapeCast_apply x1 shapeCasts_S1x1x4096_S4096 (ix1 r) (ix3 (0 : Fin 1) (0 : Fin 1) r) (by
      rw [Shape.rowMajor_val_three, Shape.rowMajor_val_one]
      show ((0 : ℕ) * 1 + 0) * 4096 + r.val = r.val
      omega)
  show max (matmul (F := Ideal) dot_S3x4096_S3x64_S4096x64_0_0_1_1_n_n none
        (truncf (F := Ideal) .bf16 (shapeCast S3x4096 x0 shapeCasts_S1x3x4096_S3x4096) bitsLt_bf16_f32)
        (truncf (F := Ideal) .bf16 (shapeCast S3x64 x2 shapeCasts_S3x64_S3x64) bitsLt_bf16_f32)
        (constant S4096x64 .f32 0x00000000#32) (ix2 r d)
      + broadcastTo S4096x64 (shapeCast S1x64 (shapeCast S64 x3 shapeCasts_S64_S64) shapeCasts_S64_S1x64)
        broadcasts_S1x64_S4096x64 (ix2 r d)) (Ideal.ofBits .f32 0x00000000#32)
      * broadcastTo S4096x64 (shapeCast S4096x1 (shapeCast S4096 x1 shapeCasts_S1x1x4096_S4096) shapeCasts_S4096_S4096x1)
        broadcasts_S4096x1_S4096x64 (ix2 r d) = _
  rw [hmm, hb, hk, Ideal.ofBits_zero_f32]

end Cert.Pillar.KBody

end
-- ==== Proof.KEmb.lean ====
/-
  From the kernel's blocks to its output array.

  The launch runs the body on a 4 × 25 grid: point `(r, i)` takes rows `4096·i … 4096·i + 4095` of batch row `r` of
  the coordinates (block `(r, 0, i)` of the `[4, 3, 102400]` array) and of the mask (block `(r, 0, i)` of the
  `[4, 1, 102400]` array), the whole weights and the whole bias, and writes block `(r, i, 0)` of the `[4, 102400, 64]`
  output. What the body stores at an entry of its block is the embedding of that block's point; read where the
  output's block lies in the arrays, that is the entry of `embArr` of the four operand arrays. The 100 blocks tile the
  output, so after the run the output array is `embArr` of the operand arrays.
-/
import proofs.«150501_j71313636983306_2_alg».proof.Proof.Gen.KernelIdeal.Frame
import proofs.«150501_j71313636983306_2_alg».proof.Proof.KArr
import proofs.«150501_j71313636983306_2_alg».proof.Proof.KBody
import Idealize.ShloMosaic.Lib.Pipeline.Value
import Idealize.ShloMosaic.Lib.ValueIdx

set_option maxRecDepth 16384

noncomputable section

namespace Cert.Pillar.KEmb

open Cert.KernelIdeal Cert.KernelIdeal.Gen Idealize.ShloMosaic Idealize.ShloMosaic.TcCoe Idealize.SL.Sem
open Idealize.ShloMosaic.ValueIdx Cert.Pillar
open Idealize.ShloMosaic.Pipeline (Dat)

variable (m : (ℓ : Loc nD τ sig) → Buf (Elt Ideal) ℓ) (c : Dev nD)

/-! ## The blocks' offsets inside the staging buffers are zero -/

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

/-! ## The index maps over the grid -/

/-- The printed index maps, decided over the 100 grid points: the coordinates' and the mask's blocks move with the
    output's block (same batch row, same chunk of points, block 0 on their middle axis), the weights and the bias are
    whole, and the output's block indices stay in their ranges. -/
theorem idx_facts : ∀ t : Fin cfg0.N,
    win0_4.index t (2 : Fin 3) = 0
    ∧ win0_0.index t (0 : Fin 3) = win0_4.index t (0 : Fin 3)
    ∧ win0_0.index t (1 : Fin 3) = 0
    ∧ win0_0.index t (2 : Fin 3) = win0_4.index t (1 : Fin 3)
    ∧ win0_1.index t (0 : Fin 3) = win0_4.index t (0 : Fin 3)
    ∧ win0_1.index t (1 : Fin 3) = 0
    ∧ win0_1.index t (2 : Fin 3) = win0_4.index t (1 : Fin 3)
    ∧ win0_2.index t (0 : Fin 2) = 0
    ∧ win0_2.index t (1 : Fin 2) = 0
    ∧ win0_3.index t (0 : Fin 1) = 0
    ∧ win0_4.index t (0 : Fin 3) ≤ 3
    ∧ win0_4.index t (1 : Fin 3) ≤ 24 :=
  (by decide +kernel : ∀ t : Fin grid0.N, _)

/-- Every block `(q0, q1, 0)` of the output is some grid point's. -/
theorem idx_onto : ∀ (q0 : Fin 4) (q1 : Fin 25), ∃ t : Fin cfg0.N,
    win0_4.index t (0 : Fin 3) = q0.val ∧ win0_4.index t (1 : Fin 3) = q1.val :=
  (by decide +kernel : ∀ (q0 : Fin 4) (q1 : Fin 25), ∃ t : Fin grid0.N,
    win0_4.index t (0 : Fin 3) = q0.val ∧ win0_4.index t (1 : Fin 3) = q1.val)

/-! ## What a grid point writes back -/

/-- An index of a block whose first extent is one has first coordinate zero. -/
private theorem eq_ix3_unit {n1 n2 : Nat} (j : (⟨3, ![1, n1, n2]⟩ : Shape).Idx) :
    j = ix3 (0 : Fin 1) (j 1) (j 2) := by
  funext a
  match a with
  | ⟨0, _⟩ => apply Fin.ext; show (j 0).val = 0; have h : (j 0).val < 1 := (j 0).isLt; omega
  | ⟨1, _⟩ => rfl
  | ⟨2, _⟩ => rfl

/-- The body's stored value at any entry `j = (0, r, d)` of its block, from the four blocks it loads. -/
theorem point_eq (x0 : Vec Ideal S1x3x4096 .f32) (x1 : Vec Ideal S1x1x4096 .f32) (x2 : Vec Ideal S3x64 .f32)
    (x3 : Vec Ideal S64 .f32) (j : S1x4096x64.Idx) :
    k0_pay1 (F := Ideal) x0 x2 x3 x1 j
      = max ((∑ f : Fin 3, x0 (ix3 (0 : Fin 1) f (j 1)) * x2 (ix2 f (j 2))) + x3 (ix1 (j 2))) 0
          * x1 (ix3 (0 : Fin 1) (0 : Fin 1) (j 1)) :=
  (congrArg (k0_pay1 (F := Ideal) x0 x2 x3 x1) (eq_ix3_unit j)).trans (Cert.Pillar.KBody.pay_apply x0 x2 x3 x1 (j 1) (j 2))

/-- Each input window's block at point `t` is its array, as the launch finds it, read through the block. -/
theorem blk0 (t : Fin cfg0.N) (y : S1x3x4096.Idx) :
    iblk m c 0 t y = V m c main_v13 (((cfg0.win 0).blk t).view.emb y) := rfl
theorem blk1 (t : Fin cfg0.N) (y : S1x1x4096.Idx) :
    iblk m c 1 t y = V m c main_v16 (((cfg0.win 1).blk t).view.emb y) := rfl
theorem blk2 (t : Fin cfg0.N) (y : S3x64.Idx) :
    iblk m c 2 t y = V m c main_v27 (((cfg0.win 2).blk t).view.emb y) := rfl
theorem blk3 (t : Fin cfg0.N) (y : S64.Idx) :
    iblk m c 3 t y = V m c main_v29 (((cfg0.win 3).blk t).view.emb y) := rfl

/-- Where the blocks lie in their arrays: a block's coordinate is its block index times the block's extent plus the
    coordinate inside the block, and the input windows' block indices follow the output's. Entry `(0, f, r)` of the
    coordinates' block is entry `(row, f, point)` of the array, `(row, point, ·)` the place of the output block's
    entry `(0, r, ·)`. -/
theorem emb0 (t : Fin cfg0.N) (j : S1x4096x64.Idx) (f : Fin 3) :
    ((cfg0.win 0).blk t).view.emb (ix3 (0 : Fin 1) f (j 1))
      = ix3 ((((cfg0.win 4).blk t).view.emb j) 0) f ((((cfg0.win 4).blk t).view.emb j) 1) := by
  obtain ⟨e4, e00, e01, e02, -⟩ := idx_facts t
  have hj0 : (j 0).val < 1 := (j 0).isLt
  funext a; apply Fin.ext
  match a with
  | ⟨0, _⟩ => show win0_0.index t (0 : Fin 3) * 1 + 1 * 0 = win0_4.index t (0 : Fin 3) * 1 + 1 * (j 0).val; omega
  | ⟨1, _⟩ => show win0_0.index t (1 : Fin 3) * 3 + 1 * f.val = f.val; omega
  | ⟨2, _⟩ => show win0_0.index t (2 : Fin 3) * 4096 + 1 * (j 1).val = win0_4.index t (1 : Fin 3) * 4096 + 1 * (j 1).val; omega

/-- Entry `(0, 0, r)` of the mask's block is entry `(row, 0, point)` of the array. -/
theorem emb1 (t : Fin cfg0.N) (j : S1x4096x64.Idx) :
    ((cfg0.win 1).blk t).view.emb (ix3 (0 : Fin 1) (0 : Fin 1) (j 1))
      = ix3 ((((cfg0.win 4).blk t).view.emb j) 0) (0 : Fin 1) ((((cfg0.win 4).blk t).view.emb j) 1) := by
  obtain ⟨e4, e00, e01, e02, e10, e11, e12, -⟩ := idx_facts t
  have hj0 : (j 0).val < 1 := (j 0).isLt
  funext a; apply Fin.ext
  match a with
  | ⟨0, _⟩ => show win0_1.index t (0 : Fin 3) * 1 + 1 * 0 = win0_4.index t (0 : Fin 3) * 1 + 1 * (j 0).val; omega
  | ⟨1, _⟩ => show win0_1.index t (1 : Fin 3) * 1 + 1 * 0 = 0; omega
  | ⟨2, _⟩ => show win0_1.index t (2 : Fin 3) * 4096 + 1 * (j 1).val = win0_4.index t (1 : Fin 3) * 4096 + 1 * (j 1).val; omega

/-- The weights' one block is the array: entry `(f, d)`, `d` the output entry's channel. -/
theorem emb2 (t : Fin cfg0.N) (j : S1x4096x64.Idx) (f : Fin 3) :
    ((cfg0.win 2).blk t).view.emb (ix2 f (j 2)) = ix2 f ((((cfg0.win 4).blk t).view.emb j) 2) := by
  obtain ⟨e4, e00, e01, e02, e10, e11, e12, e20, e21, -⟩ := idx_facts t
  funext a; apply Fin.ext
  match a with
  | ⟨0, _⟩ => show win0_2.index t (0 : Fin 2) * 3 + 1 * f.val = f.val; omega
  | ⟨1, _⟩ => show win0_2.index t (1 : Fin 2) * 64 + 1 * (j 2).val = win0_4.index t (2 : Fin 3) * 64 + 1 * (j 2).val; omega

/-- The bias's one block is the array: entry `d`. -/
theorem emb3 (t : Fin cfg0.N) (j : S1x4096x64.Idx) :
    ((cfg0.win 3).blk t).view.emb (ix1 (j 2)) = ix1 ((((cfg0.win 4).blk t).view.emb j) 2) := by
  obtain ⟨e4, e00, e01, e02, e10, e11, e12, e20, e21, e30, -⟩ := idx_facts t
  funext a; apply Fin.ext
  match a with
  | ⟨0, _⟩ => show win0_3.index t (0 : Fin 1) * 64 + 1 * (j 2).val = win0_4.index t (2 : Fin 3) * 64 + 1 * (j 2).val; omega

/-- WHAT POINT `t` WRITES BACK is block `t` of `embArr` of the operand arrays as the launch finds them. -/
theorem flushed_eq (t : Fin cfg0.N) :
    (dats m 0 c).flushed 4 t = ((cfg0.win 4).blk t).view.read (Elt Ideal)
      (embArr (V m c main_v13) (V m c main_v16) (V m c main_v27) (V m c main_v29)) := by
  show (cfg0.win 4).cut (grid0.coords t) ((dats m 0 c).after 4 t) = _
  rw [after0_4]
  unfold out0_4
  rw [View.canon_unit_zero zero3]
  simp only [View.ld_unit_zero (S := S1x3x4096) zero3, View.ld_unit_zero (S := S3x64) zero2,
    View.ld_unit_zero (S := S64) zero1, View.ld_unit_zero (S := S1x1x4096) zero3]
  funext j
  show k0_pay1 (F := Ideal) (iblk m c 0 t) (iblk m c 2 t) (iblk m c 3 t) (iblk m c 1 t) j
      = embArr (V m c main_v13) (V m c main_v16) (V m c main_v27) (V m c main_v29) (((cfg0.win 4).blk t).view.emb j)
  refine (point_eq (iblk m c 0 t) (iblk m c 1 t) (iblk m c 2 t) (iblk m c 3 t) j).trans ?_
  unfold embArr
  exact congrArg₂ (· * ·)
    (congrArg (max · 0) (congrArg₂ (· + ·)
      (Finset.sum_congr rfl fun f _ => congrArg₂ (· * ·)
        ((blk0 m c t _).trans (congrArg (V m c main_v13) (emb0 t j f)))
        ((blk2 m c t _).trans (congrArg (V m c main_v27) (emb2 t j f))))
      ((blk3 m c t _).trans (congrArg (V m c main_v29) (emb3 t j)))))
    ((blk1 m c t _).trans (congrArg (V m c main_v16) (emb1 t j)))

/-! ## The blocks tile the output -/

/-- An index of the output is in point `t`'s block iff each coordinate is in the block's range on its axis. -/
theorem mem_blk (t : Fin cfg0.N) (i : S4x102400x64.Idx) :
    i ∈ ((cfg0.win 4).blk t).view.set ↔ ∀ a : Fin 3, win0_4.index t a * S1x4096x64.size a ≤ (i a).val
      ∧ (i a).val < win0_4.index t a * S1x4096x64.size a + S1x4096x64.size a := by
  show i ∈ ((View.whole main_v30).slice (win0_4.rect t)).set ↔ _
  rw [View.set_slice_whole, Rect.mem_set_unit]
  exact Iff.rfl

/-- Entry `(r, n, d)` of the output is in the block of the point with block index `(r, n / 4096, 0)`, and every point
    writes its block back. -/
theorem cover (i : S4x102400x64.Idx) :
    ∃ t : Fin cfg0.N, (cfg0.win 4).flush t = true ∧ i ∈ ((cfg0.win 4).blk t).view.set := by
  have hi0 : (i 0).val < 4 := (i 0).isLt
  have hi1 : (i 1).val < 102400 := (i 1).isLt
  have hi2 : (i 2).val < 64 := (i 2).isLt
  obtain ⟨t, q0, q1⟩ := idx_onto ⟨(i 0).val, hi0⟩ ⟨(i 1).val / 4096, by omega⟩
  have q0' : win0_4.index t (0 : Fin 3) = (i 0).val := q0
  have q1' : win0_4.index t (1 : Fin 3) = (i 1).val / 4096 := q1
  obtain ⟨e4, -⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 4096 ≤ (i 1).val ∧ (i 1).val < win0_4.index t (1 : Fin 3) * 4096 + 4096; omega
  | ⟨2, _⟩ => show win0_4.index t (2 : Fin 3) * 64 ≤ (i 2).val ∧ (i 2).val < win0_4.index t (2 : Fin 3) * 64 + 64; omega

/-! ## The output array after the run -/

/-- THE OUTPUT ARRAY after the run is `embArr` of the operand arrays as the launch finds them. -/
theorem final4 : (dats m 0 c).arrAt 4 cfg0.N
    = embArr (V m c main_v13) (V m c main_v16) (V m c main_v27) (V m c main_v29) :=
  (dats m 0 c).arrAt_eq_of_cover 4 (embArr (V m c main_v13) (V m c main_v16) (V m c main_v27) (V m c main_v29))
    (fun t _ => flushed_eq m c t) (cover)

end Cert.Pillar.KEmb

end
-- ==== Proof.Spec.lean ====
/-
  The common mathematics of the two programs.

  A point cloud of two batches and two time steps (previous, current) is embedded point by point — a linear layer of
  three inputs and sixty-four outputs, an evaluation-mode batch normalisation, a rectification, a zero for a masked
  point — and every embedded point is added into the cell of a 640 × 640 grid its cell number names; a negative cell
  number counts from the end, a cell number outside the grid drops the point. Row `2·b + t` of the result is batch
  `b` at time step `t`.

  The batch normalisation scales by `γ / √(σ² + ε)`. One program applies it after the linear layer
  (`embAfter`), the other folds it into the layer's weights and bias (`embFolded`). The two agree when every number is
  finite and the scale is finite, that is when `σ² + ε` is positive: distributivity needs finiteness on the extended reals.
-/
import Idealize.ShloMosaic.PureOps
import Idealize.ShloMosaic.PureOps.Ideal
import Idealize.ShloMosaic.Lib.ValueIdx

noncomputable section

namespace Cert.Pillar

open Idealize.ShloMosaic Idealize.ShloMosaic.ValueIdx

abbrev SPcl : Shape := ⟨3, ![2, 100000, 3]⟩
abbrev SPt : Shape := ⟨2, ![2, 100000]⟩
abbrev SW : Shape := ⟨2, ![64, 3]⟩
abbrev SV : Shape := ⟨1, ![64]⟩
abbrev SOut : Shape := ⟨4, ![4, 64, 640, 640]⟩

/-- The variance offset ε as the programs print it. -/
def epsW : EReal := Ideal.ofBits .f32 0x3727C5AC#32

/-- The normalisation's scale of channel `d`: γ / √(σ² + ε). -/
def scale (g var : SV.Idx → EReal) (d : Fin 64) : EReal :=
  Ideal.div (g (ix1 d)) (Ideal.sqrt (var (ix1 d) + epsW))

/-- A mask bit as a number. -/
def maskF (v : BitVec 1) : EReal := FloatOps.uitofp (F := Ideal) .f32 v

/-- One point's embedding, the normalisation applied AFTER the linear layer. -/
def embAfter (x : SPcl.Idx → EReal) (k : IVec SPt 1) (W : SW.Idx → EReal) (b g be mu var : SV.Idx → EReal)
    (bb : Fin 2) (n : Fin 100000) (d : Fin 64) : EReal :=
  max ((((∑ f : Fin 3, x (ix3 bb n f) * W (ix2 d f)) + b (ix1 d)) - mu (ix1 d)) * scale g var d + be (ix1 d)) 0
    * maskF (k (ix2 bb n))

/-- One point's embedding, the normalisation FOLDED into the layer's weights and bias. -/
def embFolded (x : SPcl.Idx → EReal) (k : IVec SPt 1) (W : SW.Idx → EReal) (b g be mu var : SV.Idx → EReal)
    (bb : Fin 2) (n : Fin 100000) (d : Fin 64) : EReal :=
  max ((∑ f : Fin 3, x (ix3 bb n f) * (W (ix2 d f) * scale g var d))
      + (b (ix1 d) * scale g var d + (be (ix1 d) - mu (ix1 d) * scale g var d))) 0
    * maskF (k (ix2 bb n))

/-- A cell number with a negative one counted from the end of the 409600 cells. -/
def normCell (v : BitVec 32) : BitVec 32 :=
  Scalar.select (IntOp.cmpi .slt v 0#32) (IntOp.addi v 409600#32) v

/-- What cell `p` of one batch row collects: the embeddings of the points whose cell number is `p`. -/
def cellSum (cell : Fin 100000 → BitVec 32) (e : Fin 100000 → EReal) (p : Nat) : EReal :=
  ∑ n : Fin 100000, if (normCell (cell n)).toInt = (p : Int) then e n else 0

/-- The batch `b` of result row `2·b + t`. -/
def batchOf (i : SOut.Idx) : Fin 2 := ⟨(i 0).val / 2, by have h : (i 0).val < 4 := (i 0).isLt; omega⟩

/-- The grid of pillars: row `2·b + t` is batch `b` at time step `t` (`e0`, `c0` the previous step's embeddings
    and cell numbers, `e1`, `c1` the current step's), cell `(x, y)` is cell number `640·x + y`. -/
def pillars (e0 e1 : Fin 2 → Fin 100000 → Fin 64 → EReal) (c0 c1 : IVec SPt 32) : SOut.Idx → EReal := fun i =>
  if (i 0).val % 2 = 0 then
    cellSum (fun n => c0 (ix2 (batchOf i) n)) (fun n => e0 (batchOf i) n (i 1)) ((i 2).val * 640 + (i 3).val)
  else
    cellSum (fun n => c1 (ix2 (batchOf i) n)) (fun n => e1 (batchOf i) n (i 1)) ((i 2).val * 640 + (i 3).val)

end Cert.Pillar

end
-- ==== Proof.LibScatterBatch.lean ====
/-
  A scatter-add of rows into a batch of arrays, each row to the cell its batch's index column names: what
  `x.at[arange(B)[:, None], idx].add(u)` lowers to, read at an entry.

  Updates `[B, N, D]` go into an operand `[B, P, D]` at the scatter indices `[B, N, 2]`: the updates' last axis is the one
  window axis, the operand's first two axes are inserted and are the ones a scatter index names, the index vector lies
  along the indices' last axis. The update at `(b, n, q)` lands at `(idx[b,n,0], idx[b,n,1], q)`, the two numbers read
  as signed integers, and is dropped when that is outside the operand. When the first number of every index is its own
  batch's number, entry `(b, p, q)` of the result is the operand's plus the sum, over the rows `n` of batch `b` whose
  second number is `p`, of the update at `(b, n, q)`. The dimension numbers enter through their fields.
-/
import Idealize.ShloMosaic.PureOps
import Idealize.ShloMosaic.PureOps.Ideal
import Idealize.ShloMosaic.Lib.ValueIdx

noncomputable section

namespace Cert.ScatterBatch

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun t := ix3 t.1 t.2.1 t.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

section Dims

variable {B P D N w : Nat} (d : ScatterDims ⟨3, ![B, P, D]⟩ ⟨3, ![B, N, 2]⟩ ⟨3, ![B, N, D]⟩)
  (h1 : d.updateWindowDims = [2]) (h2 : d.insertedWindowDims = [0, 1]) (h3 : d.scatterDimsToOperandDims = [0, 1])
  (h4 : d.indexVectorDim = 2) (idx : IVec ⟨3, ![B, N, 2]⟩ w) (b : Fin B) (n : Fin N) (q : Fin D)

include h1 h2 h3 h4

/-- On the operand's first axis the window of the update at `(b, n, q)` starts at `idx[b, n, 0]`, read signed. -/
theorem start0 : d.start (ix3 b n q) idx 0 = (idx (ix3 b n (0 : Fin 2))).toInt := by
  obtain ⟨uw, iw, sd, iv, wf⟩ := d
  dsimp only at h1 h2 h3 h4
  subst h1 h2 h3 h4
  unfold ScatterDims.start
  rw [dif_pos (by simp)]
  have hsi : (⟨[2], [0, 1], [0, 1], 2, wf⟩ : ScatterDims ⟨3, ![B, P, D]⟩ ⟨3, ![B, N, 2]⟩ ⟨3, ![B, N, D]⟩).siIdx (ix3 b n q)
      ⟨List.idxOf (0 : Fin 3) [0, 1], List.idxOf_lt_length_iff.2 (by simp)⟩ = ix3 b n (0 : Fin 2) := by
    funext c; refine Fin.ext ?_
    match c with
    | ⟨0, _⟩ => rfl
    | ⟨1, _⟩ => rfl
    | ⟨2, _⟩ => rfl
  rw [hsi]

/-- On the operand's second axis it starts at `idx[b, n, 1]`, read signed. -/
theorem start1 : d.start (ix3 b n q) idx 1 = (idx (ix3 b n (1 : Fin 2))).toInt := by
  obtain ⟨uw, iw, sd, iv, wf⟩ := d
  dsimp only at h1 h2 h3 h4
  subst h1 h2 h3 h4
  unfold ScatterDims.start
  rw [dif_pos (by simp)]
  have hsi : (⟨[2], [0, 1], [0, 1], 2, wf⟩ : ScatterDims ⟨3, ![B, P, D]⟩ ⟨3, ![B, N, 2]⟩ ⟨3, ![B, N, D]⟩).siIdx (ix3 b n q)
      ⟨List.idxOf (1 : Fin 3) [0, 1], List.idxOf_lt_length_iff.2 (by simp)⟩ = ix3 b n (1 : Fin 2) := by
    funext c; refine Fin.ext ?_
    match c with
    | ⟨0, _⟩ => rfl
    | ⟨1, _⟩ => rfl
    | ⟨2, _⟩ => rfl
  rw [hsi]

/-- On the operand's last axis, which no scatter index names, it starts at `0`. -/
theorem start2 : d.start (ix3 b n q) idx 2 = 0 := by
  obtain ⟨uw, iw, sd, iv, wf⟩ := d
  dsimp only at h1 h2 h3 h4
  subst h1 h2 h3 h4
  unfold ScatterDims.start
  rw [dif_neg (by simp)]

/-- The window coordinate on the inserted first axis is zero. -/
theorem window0 : d.window (ix3 b n q) 0 = 0 := by
  obtain ⟨uw, iw, sd, iv, wf⟩ := d
  dsimp only at h1 h2 h3 h4
  subst h1 h2 h3 h4
  unfold ScatterDims.window
  rw [dif_neg (by simp [ScatterDims.sKept, Shape.kept])]

/-- The window coordinate on the inserted second axis is zero. -/
theorem window1 : d.window (ix3 b n q) 1 = 0 := by
  obtain ⟨uw, iw, sd, iv, wf⟩ := d
  dsimp only at h1 h2 h3 h4
  subst h1 h2 h3 h4
  unfold ScatterDims.window
  rw [dif_neg (by simp [ScatterDims.sKept, Shape.kept])]

/-- The window coordinate on the last axis is the update's last coordinate. -/
theorem window2 : d.window (ix3 b n q) 2 = q.val := by
  obtain ⟨uw, iw, sd, iv, wf⟩ := d
  dsimp only at h1 h2 h3 h4
  subst h1 h2 h3 h4
  unfold ScatterDims.window
  rw [dif_pos (by simp [ScatterDims.sKept, Shape.kept])]
  rfl

end Dims

section Hit

variable {B P D N w : Nat} (d : ScatterDims ⟨3, ![B, P, D]⟩ ⟨3, ![B, N, 2]⟩ ⟨3, ![B, N, D]⟩)
  (h1 : d.updateWindowDims = [2]) (h2 : d.insertedWindowDims = [0, 1]) (h3 : d.scatterDimsToOperandDims = [0, 1])
  (h4 : d.indexVectorDim = 2) (idx : IVec ⟨3, ![B, N, 2]⟩ w)

include h1 h2 h3 h4

/-- THE UPDATE AT `(b', n, q')` LANDS ON ENTRY `(b, p, q)` exactly when its two index numbers, read signed, are `b` and
    `p` and its last coordinate is `q`: the range conditions hold because `b`, `p`, `q` are coordinates of the operand. -/
theorem resultIdx_eq_some_iff (b' : Fin B) (n : Fin N) (q' : Fin D) (b : Fin B) (p : Fin P) (q : Fin D) :
    d.resultIdx? (ix3 b' n q') idx = some (ix3 b p q) ↔
      (idx (ix3 b' n (0 : Fin 2))).toInt = (b.val : Int) ∧ (idx (ix3 b' n (1 : Fin 2))).toInt = (p.val : Int) ∧ q' = q := by
  have s0 := start0 d h1 h2 h3 h4 idx b' n q'
  have s1 := start1 d h1 h2 h3 h4 idx b' n q'
  have s2 := start2 d h1 h2 h3 h4 idx b' n q'
  have w0 := window0 d h1 h2 h3 h4 b' n q'
  have w1 := window1 d h1 h2 h3 h4 b' n q'
  have w2 := window2 d h1 h2 h3 h4 b' n q'
  have hbB : b.val < B := b.isLt
  have hpP : p.val < P := p.isLt
  have hqD : q.val < D := q.isLt
  have hq'D : q'.val < D := q'.isLt
  unfold ScatterDims.resultIdx?
  split
  · rename_i hr
    rw [Option.some.injEq]
    constructor
    · intro h
      have e0 : (d.start (ix3 b' n q') idx 0 + (d.window (ix3 b' n q') 0 : Int)).toNat = b.val :=
        congrArg Fin.val (congrFun h 0)
      have e1 : (d.start (ix3 b' n q') idx 1 + (d.window (ix3 b' n q') 1 : Int)).toNat = p.val :=
        congrArg Fin.val (congrFun h 1)
      have e2 : (d.start (ix3 b' n q') idx 2 + (d.window (ix3 b' n q') 2 : Int)).toNat = q.val :=
        congrArg Fin.val (congrFun h 2)
      have r0 := (hr 0).1
      have r1 := (hr 1).1
      rw [s0, w0] at e0 r0
      rw [s1, w1] at e1 r1
      rw [s2, w2] at e2
      refine ⟨by omega, by omega, Fin.ext (by omega)⟩
    · rintro ⟨e0, e1, e2⟩
      funext a
      refine Fin.ext ?_
      match a with
      | ⟨0, _⟩ =>
        show (d.start (ix3 b' n q') idx 0 + (d.window (ix3 b' n q') 0 : Int)).toNat = b.val
        rw [s0, w0]; omega
      | ⟨1, _⟩ =>
        show (d.start (ix3 b' n q') idx 1 + (d.window (ix3 b' n q') 1 : Int)).toNat = p.val
        rw [s1, w1]; omega
      | ⟨2, _⟩ =>
        show (d.start (ix3 b' n q') idx 2 + (d.window (ix3 b' n q') 2 : Int)).toNat = q.val
        rw [s2, w2, e2]; omega
  · rename_i hr
    constructor
    · intro h; exact absurd h (by simp)
    · rintro ⟨e0, e1, e2⟩
      exfalso
      apply hr
      intro a
      match a with
      | ⟨0, _⟩ =>
        show 0 ≤ d.start (ix3 b' n q') idx 0 + (d.window (ix3 b' n q') 0 : Int)
          ∧ d.start (ix3 b' n q') idx 0 + (d.window (ix3 b' n q') 0 : Int) < ((B : Nat) : Int)
        rw [s0, w0]; omega
      | ⟨1, _⟩ =>
        show 0 ≤ d.start (ix3 b' n q') idx 1 + (d.window (ix3 b' n q') 1 : Int)
          ∧ d.start (ix3 b' n q') idx 1 + (d.window (ix3 b' n q') 1 : Int) < ((P : Nat) : Int)
        rw [s1, w1]; omega
      | ⟨2, _⟩ =>
        show 0 ≤ d.start (ix3 b' n q') idx 2 + (d.window (ix3 b' n q') 2 : Int)
          ∧ d.start (ix3 b' n q') idx 2 + (d.window (ix3 b' n q') 2 : Int) < ((D : Nat) : Int)
        rw [s2, w2]; omega

end Hit

/-- ENTRY `(b, p, q)` OF A BATCHED SCATTER-ADD OF ROWS whose index column 0 is the batch number: the operand's entry plus
    the updates of the rows of batch `b` whose index column 1, read signed, is `p`. -/
theorem scatterAdd_batched_apply {B P D N w : Nat}
    (d : ScatterDims ⟨3, ![B, P, D]⟩ ⟨3, ![B, N, 2]⟩ ⟨3, ![B, N, D]⟩)
    (h1 : d.updateWindowDims = [2]) (h2 : d.insertedWindowDims = [0, 1]) (h3 : d.scatterDimsToOperandDims = [0, 1])
    (h4 : d.indexVectorDim = 2) (x : (⟨3, ![B, P, D]⟩ : Shape).Idx → EReal) (idx : IVec ⟨3, ![B, N, 2]⟩ w)
    (upd : (⟨3, ![B, N, D]⟩ : Shape).Idx → EReal)
    (hb : ∀ (b : Fin B) (n : Fin N), (idx (ix3 b n (0 : Fin 2))).toInt = (b.val : Int))
    (b : Fin B) (p : Fin P) (q : Fin D) :
    Ideal.hostScatterAdd d x idx upd (ix3 b p q)
      = x (ix3 b p q) + ∑ n : Fin N, if (idx (ix3 b n (1 : Fin 2))).toInt = (p.val : Int) then upd (ix3 b n q) else 0 := by
  show x (ix3 b p q) + ∑ j ∈ Finset.univ.filter (fun j => d.resultIdx? j idx = some (ix3 b p q)), upd j = _
  refine congrArg (x (ix3 b p q) + ·) ?_
  rw [Finset.sum_filter, sum_idx3, Finset.sum_eq_single b]
  · refine Finset.sum_congr rfl fun n _ => ?_
    rw [Finset.sum_eq_single q]
    · have hit := resultIdx_eq_some_iff d h1 h2 h3 h4 idx b n q b p q
      by_cases hp : (idx (ix3 b n (1 : Fin 2))).toInt = (p.val : Int)
      · rw [if_pos hp, if_pos (hit.2 ⟨hb b n, hp, rfl⟩)]
      · rw [if_neg hp, if_neg (fun h => hp (hit.1 h).2.1)]
    · intro q' _ hq'
      rw [if_neg (fun h => hq' ((resultIdx_eq_some_iff d h1 h2 h3 h4 idx b n q' b p q).1 h).2.2)]
    · intro h; exact absurd (Finset.mem_univ q) h
  · intro b' _ hb'
    refine Finset.sum_eq_zero fun n _ => Finset.sum_eq_zero fun q' _ => ?_
    rw [if_neg]
    intro h
    have h0 := ((resultIdx_eq_some_iff d h1 h2 h3 h4 idx b' n q' b p q).1 h).1
    rw [hb b' n] at h0
    exact hb' (Fin.ext (by exact_mod_cast h0))
  · intro h; exact absurd (Finset.mem_univ b) h

end Cert.ScatterBatch

end
-- ==== Proof.KLayout.lean ====
/-
  The host program's layout steps, read at an entry.

  Around its one launch the host program only moves numbers: it stacks the two time steps behind the batch axis and
  merges the two axes (row `2·b + t`, so `b = r / 2` and `t = r % 2`), transposes the coordinates feature-major, pads the
  point axis from 100000 to 102400 with zeros, and after the launch pairs every point's row number with its cell number,
  adds the embeddings into a zero grid at those pairs, transposes and splits the cell axis 640 × 640. Each statement
  here says which entry of which argument an entry of one of these arrays is.
-/
import proofs.«150501_j71313636983306_2_alg».proof.Proof.KTerms
import proofs.«150501_j71313636983306_2_alg».proof.Proof.Spec
import proofs.«150501_j71313636983306_2_alg».proof.Proof.LibScatterBatch
import Idealize.ShloMosaic.Lib.Pipeline.Value
import Idealize.ShloMosaic.Lib.KernelVsHost
import Idealize.ShloMosaic.Lib.ValueIdx
import Idealize.ShloMosaic.PureOps.Ideal.Laws

noncomputable section

namespace Cert.Pillar.KLayout

open Cert.KernelIdeal Cert.KernelIdeal.Facts₀ Idealize.ShloMosaic Idealize.ShloMosaic.ValueIdx

/-- The batch `b` of the stacked row `2·b + t`. -/
def rowB (r : Fin 4) : Fin 2 := ⟨r.val / 2, by have := r.isLt; omega⟩

/-- The time step `t` of the stacked row `2·b + t`. -/
def rowT (r : Fin 4) : Fin 2 := ⟨r.val % 2, by omega⟩

/-- THE STACKED COORDINATES at row `r = 2·b + t`: the previous step's at batch `b` when `t = 0`, the current step's when
    `t = 1`. -/
theorem stackPcl_apply (a0 a3 : FVec Ideal S2x100000x3 .f32) (r : Fin 4) (n : Fin 100000) (f : Fin 3) :
    KTerms.stackPcl a0 a3 (ix3 r n f) = if r.val % 2 = 0 then a0 (ix3 (rowB r) n f) else a3 (ix3 (rowB r) n f) := by
  have hr : r.val < 4 := r.isLt
  unfold KTerms.stackPcl
  rw [shapeCast_apply _ shapeCasts_S2x2x100000x3_S4x100000x3 (ix3 r n f) (ix4 (rowB r) (rowT r) n f) (by
    rewrite [Shape.rowMajor_val_four, Shape.rowMajor_val_three]
    show ((r.val / 2 * 2 + r.val % 2) * 100000 + n.val) * 3 + f.val = (r.val * 100000 + n.val) * 3 + f.val
    omega)]
  by_cases ht : r.val % 2 = 0
  · rw [if_pos ht]
    rw [concatenate_pair_apply_left (t := S2x2x100000x3) (s₁ := S2x1x100000x3) (s₂ := S2x1x100000x3) (1 : Fin 4) _ _
      concatenates_S2x1x100000x3_S2x1x100000x3_S2x2x100000x3_d1 (ix4 (rowB r) (rowT r) n f) rfl (ix4 (rowB r) (0 : Fin 1) n f)
      (fun b => match b with
        | ⟨0, _⟩ => rfl
        | ⟨1, _⟩ => by show 0 = r.val % 2; omega
        | ⟨2, _⟩ => rfl
        | ⟨3, _⟩ => rfl)]
    exact broadcastInDim_apply _ bcast_S2x100000x3_S2x1x100000x3_0_2_3 a0 (ix4 (rowB r) (0 : Fin 1) n f) (ix3 (rowB r) n f)
      (fun a => match a with
        | ⟨0, _⟩ => by show (rowB r).val = if (2 : Nat) = 1 then 0 else (rowB r).val; rw [if_neg (by decide)]
        | ⟨1, _⟩ => by show n.val = if (100000 : Nat) = 1 then 0 else n.val; rw [if_neg (by decide)]
        | ⟨2, _⟩ => by show f.val = if (3 : Nat) = 1 then 0 else f.val; rw [if_neg (by decide)])
  · rw [if_neg ht]
    rw [concatenate_pair_apply_right (t := S2x2x100000x3) (s₁ := S2x1x100000x3) (s₂ := S2x1x100000x3) (1 : Fin 4) _ _
      concatenates_S2x1x100000x3_S2x1x100000x3_S2x2x100000x3_d1 (ix4 (rowB r) (rowT r) n f) rfl rfl (ix4 (rowB r) (0 : Fin 1) n f)
      (fun b => match b with
        | ⟨0, _⟩ => fun _ => rfl
        | ⟨1, _⟩ => fun h => absurd rfl h
        | ⟨2, _⟩ => fun _ => rfl
        | ⟨3, _⟩ => fun _ => rfl)
      (by show 0 + 1 = r.val % 2; omega)]
    exact broadcastInDim_apply _ bcast_S2x100000x3_S2x1x100000x3_0_2_3 a3 (ix4 (rowB r) (0 : Fin 1) n f) (ix3 (rowB r) n f)
      (fun a => match a with
        | ⟨0, _⟩ => by show (rowB r).val = if (2 : Nat) = 1 then 0 else (rowB r).val; rw [if_neg (by decide)]
        | ⟨1, _⟩ => by show n.val = if (100000 : Nat) = 1 then 0 else n.val; rw [if_neg (by decide)]
        | ⟨2, _⟩ => by show f.val = if (3 : Nat) = 1 then 0 else f.val; rw [if_neg (by decide)])

/-- TWO STACKED ARRAYS OF WORDS at row `r = 2·b + t`: the first at batch `b` when `t = 0`, the second when `t = 1`. -/
theorem stackW_apply {w : Nat} (a b : IVec S2x100000 w) (r : Fin 4) (n : Fin 100000) :
    KTerms.stackW a b (ix2 r n) = if r.val % 2 = 0 then a (ix2 (rowB r) n) else b (ix2 (rowB r) n) := by
  have hr : r.val < 4 := r.isLt
  unfold KTerms.stackW
  rw [shapeCast_apply _ shapeCasts_S2x2x100000_S4x100000 (ix2 r n) (ix3 (rowB r) (rowT r) n) (by
    rewrite [Shape.rowMajor_val_three, Shape.rowMajor_val_two]
    show (r.val / 2 * 2 + r.val % 2) * 100000 + n.val = r.val * 100000 + n.val
    omega)]
  by_cases ht : r.val % 2 = 0
  · rw [if_pos ht]
    rw [concatenate_pair_apply_left (t := S2x2x100000) (s₁ := S2x1x100000) (s₂ := S2x1x100000) (1 : Fin 3) _ _
      concatenates_S2x1x100000_S2x1x100000_S2x2x100000_d1 (ix3 (rowB r) (rowT r) n) rfl (ix3 (rowB r) (0 : Fin 1) n)
      (fun c => match c with
        | ⟨0, _⟩ => rfl
        | ⟨1, _⟩ => by show 0 = r.val % 2; omega
        | ⟨2, _⟩ => rfl)]
    exact broadcastInDim_apply _ bcast_S2x100000_S2x1x100000_0_2 a (ix3 (rowB r) (0 : Fin 1) n) (ix2 (rowB r) n)
      (fun c => match c with
        | ⟨0, _⟩ => by show (rowB r).val = if (2 : Nat) = 1 then 0 else (rowB r).val; rw [if_neg (by decide)]
        | ⟨1, _⟩ => by show n.val = if (100000 : Nat) = 1 then 0 else n.val; rw [if_neg (by decide)])
  · rw [if_neg ht]
    rw [concatenate_pair_apply_right (t := S2x2x100000) (s₁ := S2x1x100000) (s₂ := S2x1x100000) (1 : Fin 3) _ _
      concatenates_S2x1x100000_S2x1x100000_S2x2x100000_d1 (ix3 (rowB r) (rowT r) n) rfl rfl (ix3 (rowB r) (0 : Fin 1) n)
      (fun c => match c with
        | ⟨0, _⟩ => fun _ => rfl
        | ⟨1, _⟩ => fun h => absurd rfl h
        | ⟨2, _⟩ => fun _ => rfl)
      (by show 0 + 1 = r.val % 2; omega)]
    exact broadcastInDim_apply _ bcast_S2x100000_S2x1x100000_0_2 b (ix3 (rowB r) (0 : Fin 1) n) (ix2 (rowB r) n)
      (fun c => match c with
        | ⟨0, _⟩ => by show (rowB r).val = if (2 : Nat) = 1 then 0 else (rowB r).val; rw [if_neg (by decide)]
        | ⟨1, _⟩ => by show n.val = if (100000 : Nat) = 1 then 0 else n.val; rw [if_neg (by decide)])

/-- THE LAUNCH'S FIRST OPERAND at a point that is not padding: the stacked coordinates, feature-major. -/
theorem pclPad_apply (a0 a3 : FVec Ideal S2x100000x3 .f32) (r : Fin 4) (f : Fin 3) (n : Fin 102400) (hn : n.val < 100000) :
    KTerms.pclPad a0 a3 (ix3 r f n)
      = if r.val % 2 = 0 then a0 (ix3 (rowB r) ⟨n.val, hn⟩ f) else a3 (ix3 (rowB r) ⟨n.val, hn⟩ f) := by
  unfold KTerms.pclPad
  rw [pad_apply_of_inside _ _ _ _ _ pads_S4x3x100000_S4x3x102400_000_000_024000 h_S_ (ix3 r f n)
    (ix3 r f (⟨n.val, hn⟩ : Fin 100000)) (fun a => match a with
      | ⟨0, _⟩ => by show r.val = 0 + r.val * (0 + 1); omega
      | ⟨1, _⟩ => by show f.val = 0 + f.val * (0 + 1); omega
      | ⟨2, _⟩ => by show n.val = 0 + n.val * (0 + 1); omega)]
  rw [transpose_apply [0, 2, 1] _ transposes_S4x100000x3_S4x3x100000_0_2_1 (ix3 r f (⟨n.val, hn⟩ : Fin 100000))
    (ix3 r (⟨n.val, hn⟩ : Fin 100000) f) (fun b => match b with
      | ⟨0, _⟩ => rfl
      | ⟨1, _⟩ => rfl
      | ⟨2, _⟩ => rfl)]
  exact stackPcl_apply a0 a3 r ⟨n.val, hn⟩ f

/-- The padding value: the zero word as a number is zero. -/
theorem padZero : sitofp (F := Ideal) .f32 (constantI S_ 32 0#32) (Shape.Idx.first h_S_) = (0 : EReal) := by
  show (((0#32 : BitVec 32).toInt : ℝ) : EReal) = 0
  simp

/-- THE LAUNCH'S SECOND OPERAND at a point that is not padding: the stacked mask bit as a number. -/
theorem maskPad_apply_in (a1 a4 : IVec S2x100000 1) (r : Fin 4) (n : Fin 102400) (hn : n.val < 100000) :
    KTerms.maskPad a1 a4 (ix3 r (0 : Fin 1) n)
      = Cert.Pillar.maskF (if r.val % 2 = 0 then a1 (ix2 (rowB r) ⟨n.val, hn⟩) else a4 (ix2 (rowB r) ⟨n.val, hn⟩)) := by
  unfold KTerms.maskPad
  rw [broadcastInDim_apply _ bcast_S4x102400_S4x1x102400_0_2 _ (ix3 r (0 : Fin 1) n) (ix2 r n) (fun a => match a with
      | ⟨0, _⟩ => by show r.val = if (4 : Nat) = 1 then 0 else r.val; rw [if_neg (by decide)]
      | ⟨1, _⟩ => by show n.val = if (102400 : Nat) = 1 then 0 else n.val; rw [if_neg (by decide)])]
  rw [pad_apply_of_inside _ _ _ _ _ pads_S4x100000_S4x102400_000_024000 h_S_ (ix2 r n)
    (ix2 r (⟨n.val, hn⟩ : Fin 100000)) (fun a => match a with
      | ⟨0, _⟩ => by show r.val = 0 + r.val * (0 + 1); omega
      | ⟨1, _⟩ => by show n.val = 0 + n.val * (0 + 1); omega)]
  show Cert.Pillar.maskF (KTerms.stackW a1 a4 (ix2 r (⟨n.val, hn⟩ : Fin 100000))) = _
  rw [stackW_apply]

/-- THE LAUNCH'S SECOND OPERAND at a padding point is zero. -/
theorem maskPad_apply_out (a1 a4 : IVec S2x100000 1) (r : Fin 4) (n : Fin 102400) (hn : 100000 ≤ n.val) :
    KTerms.maskPad a1 a4 (ix3 r (0 : Fin 1) n) = 0 := by
  unfold KTerms.maskPad
  rw [broadcastInDim_apply _ bcast_S4x102400_S4x1x102400_0_2 _ (ix3 r (0 : Fin 1) n) (ix2 r n) (fun a => match a with
      | ⟨0, _⟩ => by show r.val = if (4 : Nat) = 1 then 0 else r.val; rw [if_neg (by decide)]
      | ⟨1, _⟩ => by show n.val = if (102400 : Nat) = 1 then 0 else n.val; rw [if_neg (by decide)])]
  rw [pad_apply_of_not_inside _ _ _ _ _ pads_S4x100000_S4x102400_000_024000 h_S_ (ix2 r n) (1 : Fin 2) (fun h => by
    have h3 : (n.val - 0) / (0 + 1) < 100000 := h.2.2
    omega)]
  exact padZero

/-- THE STACKED CELL NUMBERS, PADDED, at a point that is not padding. -/
theorem cellPad_apply_in (a2 a5 : IVec S2x100000 32) (r : Fin 4) (n : Fin 102400) (hn : n.val < 100000) :
    KTerms.cellPad a2 a5 (ix2 r n)
      = if r.val % 2 = 0 then a2 (ix2 (rowB r) ⟨n.val, hn⟩) else a5 (ix2 (rowB r) ⟨n.val, hn⟩) := by
  unfold KTerms.cellPad
  rw [pad_apply_of_inside _ _ _ _ _ pads_S4x100000_S4x102400_000_024000 h_S_ (ix2 r n)
    (ix2 r (⟨n.val, hn⟩ : Fin 100000)) (fun a => match a with
      | ⟨0, _⟩ => by show r.val = 0 + r.val * (0 + 1); omega
      | ⟨1, _⟩ => by show n.val = 0 + n.val * (0 + 1); omega)]
  exact stackW_apply a2 a5 r ⟨n.val, hn⟩

/-- THE STACKED CELL NUMBERS, PADDED, at a padding point: cell number zero. -/
theorem cellPad_apply_out (a2 a5 : IVec S2x100000 32) (r : Fin 4) (n : Fin 102400) (hn : 100000 ≤ n.val) :
    KTerms.cellPad a2 a5 (ix2 r n) = 0#32 := by
  unfold KTerms.cellPad
  rw [pad_apply_of_not_inside _ _ _ _ _ pads_S4x100000_S4x102400_000_024000 h_S_ (ix2 r n) (1 : Fin 2) (fun h => by
    have h3 : (n.val - 0) / (0 + 1) < 100000 := h.2.2
    omega)]
  rfl

/-- The row numbers' column at row `r`, read signed, is `r`: none of `0 … 3` is negative. -/
theorem rowCol_toInt (r : Fin 4) : (KTerms.rowCol (ix2 r (0 : Fin 1))).toInt = (r.val : Int) := by
  fin_cases r <;> rfl

/-- The cell numbers counted from the end, at an entry. -/
theorem cellNorm_apply (v17 : IVec S4x102400 32) (r : Fin 4) (n : Fin 102400) :
    KTerms.cellNorm v17 (ix2 r n) = Cert.Pillar.normCell (v17 (ix2 r n)) := rfl

/-- THE SCATTER INDICES' FIRST NUMBER is the row number. -/
theorem scatIdx_col0 (v17 : IVec S4x102400 32) (r : Fin 4) (n : Fin 102400) :
    (KTerms.scatIdx v17 (ix3 r n (0 : Fin 2))).toInt = (r.val : Int) := by
  unfold KTerms.scatIdx
  rw [concatenate_pair_apply_left (t := S4x102400x2) (s₁ := S4x102400x1) (s₂ := S4x102400x1) (2 : Fin 3) _ _ concatenates_S4x102400x1_S4x102400x1_S4x102400x2_d2
    (ix3 r n (0 : Fin 2)) rfl (ix3 r n (0 : Fin 1)) (fun b => match b with
      | ⟨0, _⟩ => rfl
      | ⟨1, _⟩ => rfl
      | ⟨2, _⟩ => rfl)]
  rw [broadcastInDim_apply _ bcast_S4x102400_S4x102400x1_0_1 _ (ix3 r n (0 : Fin 1)) (ix2 r n) (fun a => match a with
      | ⟨0, _⟩ => by show r.val = if (4 : Nat) = 1 then 0 else r.val; rw [if_neg (by decide)]
      | ⟨1, _⟩ => by show n.val = if (102400 : Nat) = 1 then 0 else n.val; rw [if_neg (by decide)])]
  rw [broadcastInDim_apply _ bcast_S4x1_S4x102400_0_1 _ (ix2 r n) (ix2 r (0 : Fin 1)) (fun a => match a with
      | ⟨0, _⟩ => by show r.val = if (4 : Nat) = 1 then 0 else r.val; rw [if_neg (by decide)]
      | ⟨1, _⟩ => by show 0 = if (1 : Nat) = 1 then 0 else n.val; rw [if_pos rfl])]
  exact rowCol_toInt r

/-- THE SCATTER INDICES' SECOND NUMBER is the cell number, a negative one counted from the end. -/
theorem scatIdx_col1 (v17 : IVec S4x102400 32) (r : Fin 4) (n : Fin 102400) :
    KTerms.scatIdx v17 (ix3 r n (1 : Fin 2)) = Cert.Pillar.normCell (v17 (ix2 r n)) := by
  unfold KTerms.scatIdx
  rw [concatenate_pair_apply_right (t := S4x102400x2) (s₁ := S4x102400x1) (s₂ := S4x102400x1) (2 : Fin 3) _ _ concatenates_S4x102400x1_S4x102400x1_S4x102400x2_d2
    (ix3 r n (1 : Fin 2)) rfl rfl (ix3 r n (0 : Fin 1)) (fun b => match b with
      | ⟨0, _⟩ => fun _ => rfl
      | ⟨1, _⟩ => fun _ => rfl
      | ⟨2, _⟩ => fun h => absurd rfl h) rfl]
  rw [broadcastInDim_apply _ bcast_S4x102400_S4x102400x1_0_1 _ (ix3 r n (0 : Fin 1)) (ix2 r n) (fun a => match a with
      | ⟨0, _⟩ => by show r.val = if (4 : Nat) = 1 then 0 else r.val; rw [if_neg (by decide)]
      | ⟨1, _⟩ => by show n.val = if (102400 : Nat) = 1 then 0 else n.val; rw [if_neg (by decide)])]
  exact cellNorm_apply v17 r n

/-- The cell number `640·X + Y` of the cell `(X, Y)`, as a coordinate of the 409600 cells. -/
def cellOf (X Y : Fin 640) : Fin 409600 := ⟨X.val * 640 + Y.val, by have := X.isLt; have := Y.isLt; omega⟩

/-- AFTER THE LAUNCH: entry `(r, d, X, Y)` of the result is the sum of channel `d` of the embeddings of the points of row
    `r` whose cell number, a negative one counted from the end, is `640·X + Y`. -/
theorem tail_apply (v17 : IVec S4x102400 32) (E : FVec Ideal S4x102400x64 .f32) (r : Fin 4) (d : Fin 64) (X Y : Fin 640) :
    KTerms.tail v17 E (ix4 r d X Y) = ∑ n : Fin 102400,
      if (Cert.Pillar.normCell (v17 (ix2 r n))).toInt = ((X.val * 640 + Y.val : ℕ) : Int) then E (ix3 r n d) else 0 := by
  unfold KTerms.tail
  rw [shapeCast_apply _ shapeCasts_S4x64x409600_S4x64x640x640 (ix4 r d X Y) (ix3 r d (cellOf X Y)) (by
    rewrite [Shape.rowMajor_val_three, Shape.rowMajor_val_four]
    show (r.val * 64 + d.val) * 409600 + (X.val * 640 + Y.val) = ((r.val * 64 + d.val) * 640 + X.val) * 640 + Y.val
    omega)]
  rw [transpose_apply [0, 2, 1] _ transposes_S4x409600x64_S4x64x409600_0_2_1 (ix3 r d (cellOf X Y)) (ix3 r (cellOf X Y) d)
    (fun b => match b with
      | ⟨0, _⟩ => rfl
      | ⟨1, _⟩ => rfl
      | ⟨2, _⟩ => rfl)]
  show Ideal.hostScatterAdd scatter_S4x409600x64_S4x102400x2_S4x102400x64_2_01_01_2 _ (KTerms.scatIdx v17) E (ix3 r (cellOf X Y) d) = _
  rw [Cert.ScatterBatch.scatterAdd_batched_apply scatter_S4x409600x64_S4x102400x2_S4x102400x64_2_01_01_2 rfl rfl rfl rfl _
    (KTerms.scatIdx v17) E (fun b n => scatIdx_col0 v17 b n) r (cellOf X Y) d]
  have hz : broadcastInDim S4x409600x64 ![] bcast_S_S4x409600x64 (constant (F := Ideal) S_ .f32 0x00000000#32) (ix3 r (cellOf X Y) d)
      = (0 : EReal) := Ideal.ofBits_zero_f32
  rw [hz, zero_add]
  refine Finset.sum_congr rfl fun n _ => ?_
  rw [scatIdx_col1]
  rfl

end Cert.Pillar.KLayout

end
-- ==== Proof.KFinal.lean ====
/-
  The kernel's host program, read back as the grid of pillars of the folded embeddings.

  The folded weights and bias at an index are the layer's weights and bias times the normalisation's scale. The points
  beyond the 100000 real ones carry mask zero, so their embeddings are zero and a sum over all 102400 padded points is
  the sum over the first 100000. On those, the padded operands are the stacked inputs, and the embedding the launch
  leaves is the folded embedding of the batch and time step the row number 2·b + t names.
-/
import proofs.«150501_j71313636983306_2_alg».proof.Proof.KArr
import proofs.«150501_j71313636983306_2_alg».proof.Proof.Spec
import proofs.«150501_j71313636983306_2_alg».proof.Proof.KLayout
import Idealize.ShloMosaic.Lib.Pipeline.Value
import Idealize.ShloMosaic.Lib.ValueIdx
import Idealize.ShloMosaic.PureOps.Ideal.Laws

noncomputable section

open scoped BigOperators

namespace Cert.Pillar.KFinal

open Cert.KernelIdeal Cert.KernelIdeal.Facts₀ Idealize.ShloMosaic Idealize.ShloMosaic.ValueIdx

/-- The scale row at a channel is the normalisation's scale γ / √(σ² + ε). -/
theorem scaleRow_apply (a8 a11 : FVec Ideal S64 .f32) (d : Fin 64) : KTerms.scaleRow a8 a11 (ix1 d) = scale a8 a11 d :=
  rfl

/-- The folded weights at (f, d): the weight at (d, f) times the scale of channel d. -/
theorem wFold_apply (a6 : FVec Ideal S64x3 .f32) (a8 a11 : FVec Ideal S64 .f32) (f : Fin 3) (d : Fin 64) :
    KTerms.wFold a6 a8 a11 (ix2 f d) = a6 (ix2 d f) * scale a8 a11 d := by
  unfold KTerms.wFold
  refine (transpose_apply [1, 0] _ transposes_S64x3_S3x64_1_0 (ix2 f d) (ix2 d f) (fun b => match b with
    | ⟨0, _⟩ => rfl
    | ⟨1, _⟩ => rfl)).trans ?_
  show a6 (ix2 d f) * _ = _
  congr 1
  refine (broadcastInDim_apply ![0, 1] bcast_S64x1_S64x3_0_1 _ (ix2 d f) (ix2 d (0 : Fin 1)) (fun a => match a with
    | ⟨0, _⟩ => rfl
    | ⟨1, _⟩ => rfl)).trans ?_
  refine (broadcastInDim_apply ![0] bcast_S64_S64x1_0 _ (ix2 d (0 : Fin 1)) (ix1 d) (fun a => match a with
    | ⟨0, _⟩ => rfl)).trans ?_
  exact scaleRow_apply a8 a11 d

/-- The folded bias at d: b·s + (β − μ·s). -/
theorem bFold_apply (a7 a8 a9 a10 a11 : FVec Ideal S64 .f32) (d : Fin 64) :
    KTerms.bFold a7 a8 a9 a10 a11 (ix1 d)
      = a7 (ix1 d) * scale a8 a11 d + (a9 (ix1 d) - a10 (ix1 d) * scale a8 a11 d) :=
  rfl

/-- A sum whose terms vanish from M on is the sum of its first M terms. -/
theorem sum_pad {M N : ℕ} (h : M ≤ N) (g : Fin N → EReal) (hz : ∀ n : Fin N, M ≤ n.val → g n = 0) :
    ∑ n : Fin N, g n = ∑ n : Fin M, g (Fin.castLE h n) := by
  have e : ∑ n : Fin M, g (Fin.castLE h n) = ∑ x ∈ Finset.univ.map (Fin.castLEEmb h), g x := by
    rw [Finset.sum_map]; rfl
  rw [e]
  symm
  refine Finset.sum_subset (Finset.subset_univ _) (fun n _ hn => hz n ?_)
  by_contra hlt
  exact hn (Finset.mem_map.2 ⟨⟨n.val, not_le.1 hlt⟩, Finset.mem_univ _, Fin.ext rfl⟩)

open Cert.Pillar.KLayout

/-- A padding point's embedding is zero: its mask is. -/
theorem emb_out (a0 a3 : FVec Ideal S2x100000x3 .f32) (a1 a4 : IVec S2x100000 1) (a6 : FVec Ideal S64x3 .f32)
    (a7 a8 a9 a10 a11 : FVec Ideal S64 .f32) (r : Fin 4) (n : Fin 102400) (hn : 100000 ≤ n.val) (d : Fin 64) :
    embArr (KTerms.pclPad a0 a3) (KTerms.maskPad a1 a4) (KTerms.wFold a6 a8 a11) (KTerms.bFold a7 a8 a9 a10 a11)
      (ix3 r n d) = 0 := by
  show max _ 0 * KTerms.maskPad a1 a4 (ix3 r (0 : Fin 1) n) = 0
  rw [maskPad_apply_out a1 a4 r n hn, mul_zero]

/-- A real point's embedding is the folded embedding of the batch and time step its row names. -/
theorem emb_in (a0 a3 : FVec Ideal S2x100000x3 .f32) (a1 a4 : IVec S2x100000 1) (a6 : FVec Ideal S64x3 .f32)
    (a7 a8 a9 a10 a11 : FVec Ideal S64 .f32) (r : Fin 4) (n : Fin 102400) (hn : n.val < 100000) (d : Fin 64) :
    embArr (KTerms.pclPad a0 a3) (KTerms.maskPad a1 a4) (KTerms.wFold a6 a8 a11) (KTerms.bFold a7 a8 a9 a10 a11)
      (ix3 r n d)
      = if r.val % 2 = 0 then embFolded a0 a1 a6 a7 a8 a9 a10 a11 (rowB r) ⟨n.val, hn⟩ d
        else embFolded a3 a4 a6 a7 a8 a9 a10 a11 (rowB r) ⟨n.val, hn⟩ d := by
  show max ((∑ f : Fin 3, KTerms.pclPad a0 a3 (ix3 r f n) * KTerms.wFold a6 a8 a11 (ix2 f d))
      + KTerms.bFold a7 a8 a9 a10 a11 (ix1 d)) 0 * KTerms.maskPad a1 a4 (ix3 r (0 : Fin 1) n) = _
  rw [bFold_apply, maskPad_apply_in a1 a4 r n hn]
  simp only [wFold_apply, pclPad_apply a0 a3 r _ n hn]
  by_cases h2 : r.val % 2 = 0
  · simp only [if_pos h2]; rfl
  · simp only [if_neg h2]; rfl

/-- The host program around the launch at one cell of the result. -/
theorem kernel_value_at (a0 a3 : FVec Ideal S2x100000x3 .f32) (a1 a4 : IVec S2x100000 1) (a2 a5 : IVec S2x100000 32)
    (a6 : FVec Ideal S64x3 .f32) (a7 a8 a9 a10 a11 : FVec Ideal S64 .f32) (r : Fin 4) (d : Fin 64) (X Y : Fin 640) :
    KTerms.tail (KTerms.cellPad a2 a5)
        (embArr (KTerms.pclPad a0 a3) (KTerms.maskPad a1 a4) (KTerms.wFold a6 a8 a11) (KTerms.bFold a7 a8 a9 a10 a11))
        (ix4 r d X Y)
      = pillars (embFolded a0 a1 a6 a7 a8 a9 a10 a11) (embFolded a3 a4 a6 a7 a8 a9 a10 a11) a2 a5 (ix4 r d X Y) := by
  have hMN : (100000 : ℕ) ≤ 102400 := by norm_num
  rw [tail_apply, sum_pad hMN _ (fun n hn => by rw [emb_out a0 a3 a1 a4 a6 a7 a8 a9 a10 a11 r n hn d, ite_self])]
  have hlt : ∀ n : Fin 100000, (Fin.castLE hMN n).val < 100000 := fun n => n.isLt
  by_cases h2 : r.val % 2 = 0
  · refine Eq.trans (Finset.sum_congr rfl fun n _ => ?_) (if_pos h2).symm
    rw [cellPad_apply_in a2 a5 r _ (hlt n), emb_in a0 a3 a1 a4 a6 a7 a8 a9 a10 a11 r _ (hlt n) d, if_pos h2, if_pos h2]
    rfl
  · refine Eq.trans (Finset.sum_congr rfl fun n _ => ?_) (if_neg h2).symm
    rw [cellPad_apply_in a2 a5 r _ (hlt n), emb_in a0 a3 a1 a4 a6 a7 a8 a9 a10 a11 r _ (hlt n) d, if_neg h2, if_neg h2]
    rfl

/-- The kernel's host program computes the grid of pillars of the folded embeddings. -/
theorem kernel_value (a0 a3 : FVec Ideal S2x100000x3 .f32) (a1 a4 : IVec S2x100000 1) (a2 a5 : IVec S2x100000 32)
    (a6 : FVec Ideal S64x3 .f32) (a7 a8 a9 a10 a11 : FVec Ideal S64 .f32) :
    KTerms.tail (KTerms.cellPad a2 a5)
        (embArr (KTerms.pclPad a0 a3) (KTerms.maskPad a1 a4) (KTerms.wFold a6 a8 a11) (KTerms.bFold a7 a8 a9 a10 a11))
      = pillars (embFolded a0 a1 a6 a7 a8 a9 a10 a11) (embFolded a3 a4 a6 a7 a8 a9 a10 a11) a2 a5 := by
  funext i
  rw [eq_ix4 i]
  exact kernel_value_at a0 a3 a1 a4 a2 a5 a6 a7 a8 a9 a10 a11 (i 0) (i 1) (i 2) (i 3)

end Cert.Pillar.KFinal

end
-- ==== Proof.Bridge.lean ====
/-
  Two facts the comparison of the two programs rests on.

  The algebra: when every parameter is a real number and the variance is non-negative, the variance plus the
  positive offset ε is a positive real, its square root a positive real, and the normalisation's scale γ / √(σ² + ε)
  a real number s. With every number real, the folded embedding Σ_f x_f (W_f s) + (b s + (β − μ s)) and the
  embedding normalised afterwards ((Σ_f x_f W_f + b) − μ) s + β are the same real, by distributivity — which on
  the extended reals holds only because everything is finite.

  The precondition read back: the stated precondition is a conjunction of nine reductions by "and" over comparisons,
  eight of the form |v| < +∞ and one of the form v ≥ 0. It being true says that every entry of the eight float
  arrays is a real number and every entry of the last is non-negative.
-/
import proofs.«150501_j71313636983306_2_alg».proof.Proof.Spec
import proofs.«150501_j71313636983306_2_alg».proof.Proof.Gen.Pre_finite_inputs
import Idealize.ShloMosaic.Lib.ReduceAll
import Idealize.ShloMosaic.Lib.ValueIdx

noncomputable section

namespace Cert.Pillar.Bridge

open Idealize.ShloMosaic Idealize.ShloMosaic.ValueIdx

/-- The offset ε is a positive real: its pattern is a positive normal number. -/
theorem epsW_pos : ∃ e : ℝ, epsW = (e : EReal) ∧ 0 < e := by
  refine ⟨((2 ^ 23 + 0x27C5AC : ℕ) : ℝ) * (2 : ℝ) ^ ((110 : Int) - 127 - 23), ?_, by positivity⟩
  simp [epsW, Ideal.ofBits, Ideal.ieee, -EReal.coe_mul]

/-- The scale γ / √(σ² + ε) is a real number when γ is real and σ² is a non-negative real. -/
theorem scale_real (g var : SV.Idx → EReal) (hg : ∀ i, ∃ r : ℝ, g i = (r : EReal))
    (hvar : ∀ i, ∃ r : ℝ, var i = (r : EReal) ∧ 0 ≤ r) (d : Fin 64) : ∃ s : ℝ, scale g var d = (s : EReal) := by
  obtain ⟨e, he, hepos⟩ := epsW_pos
  obtain ⟨gr, hgr⟩ := hg (ix1 d)
  obtain ⟨vr, hvr, hv0⟩ := hvar (ix1 d)
  have hpos : 0 < vr + e := by linarith
  have hsq : 0 < Real.sqrt (vr + e) := Real.sqrt_pos.2 hpos
  refine ⟨gr * (1 / Real.sqrt (vr + e)), ?_⟩
  unfold scale
  rw [hgr, hvr, he, ← EReal.coe_add, Ideal.sqrt_coe, if_neg (not_lt.2 hpos.le), Ideal.div_coe hsq.ne',
    ← EReal.coe_mul]

/-- Folding the normalisation into the layer's weights and bias changes nothing when every number is finite. -/
theorem embFolded_eq_embAfter (x : SPcl.Idx → EReal) (k : IVec SPt 1) (W : SW.Idx → EReal)
    (b g be mu var : SV.Idx → EReal)
    (hx : ∀ i, ∃ r : ℝ, x i = (r : EReal)) (hW : ∀ i, ∃ r : ℝ, W i = (r : EReal))
    (hb : ∀ i, ∃ r : ℝ, b i = (r : EReal)) (hg : ∀ i, ∃ r : ℝ, g i = (r : EReal))
    (hbe : ∀ i, ∃ r : ℝ, be i = (r : EReal)) (hmu : ∀ i, ∃ r : ℝ, mu i = (r : EReal))
    (hvar : ∀ i, ∃ r : ℝ, var i = (r : EReal) ∧ 0 ≤ r) :
    embFolded x k W b g be mu var = embAfter x k W b g be mu var := by
  funext bb n d
  obtain ⟨s, hs⟩ := scale_real g var hg hvar d
  obtain ⟨x0, hx0⟩ := hx (ix3 bb n 0)
  obtain ⟨x1, hx1⟩ := hx (ix3 bb n 1)
  obtain ⟨x2, hx2⟩ := hx (ix3 bb n 2)
  obtain ⟨w0, hw0⟩ := hW (ix2 d 0)
  obtain ⟨w1, hw1⟩ := hW (ix2 d 1)
  obtain ⟨w2, hw2⟩ := hW (ix2 d 2)
  obtain ⟨br, hbr⟩ := hb (ix1 d)
  obtain ⟨ber, hber⟩ := hbe (ix1 d)
  obtain ⟨mur, hmur⟩ := hmu (ix1 d)
  unfold embFolded embAfter
  congr 1; congr 1
  rw [Fin.sum_univ_three, Fin.sum_univ_three, hs, hx0, hx1, hx2, hw0, hw1, hw2, hbr, hber, hmur]
  simp only [← EReal.coe_mul, ← EReal.coe_add, ← EReal.coe_sub]
  congr 1; ring

/-- A shape with no axes has one index. -/
instance subsingleton_scalarIdx : Subsingleton Cert.Pre_finite_inputs.S_.Idx := ⟨fun _ _ => funext fun d => d.elim0⟩

/-- The pattern of +∞ denotes ⊤. -/
theorem ofBits_inf : Ideal.ofBits .f32 0x7F800000#32 = ⊤ := by simp [Ideal.ofBits, Ideal.ieee]

/-- The pattern of +0.0 denotes 0. -/
theorem ofBits_zero : Ideal.ofBits .f32 0x00000000#32 = 0 := by simp [Ideal.ofBits, Ideal.ieee]

/-- |v| < +∞ at one element says that the element is a real number: at ⊤ and at ⊥ the absolute value is ⊤. -/
theorem real_of_abs_lt_inf (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

/-- v ≥ 0 at one element. -/
theorem nonneg_of_oge_zero (v : EReal) (h : Ideal.cmp .oge v (Ideal.ofBits .f32 0x00000000#32) = 1#1) : 0 ≤ v := by
  rw [ofBits_zero] at h
  by_contra hn
  simp [Ideal.cmp, hn] at h

/-- A conjunction of two one-bit arrays that is 1 at an index has both 1 there. -/
theorem andi_one {s : Shape} (p q : IVec s 1) (i : s.Idx) (h : andi p q i = 1#1) : p i = 1#1 ∧ q i = 1#1 :=
  IntOp.andi_eq_one.1 h

/-- "All of |a| < +∞" read back: every entry of a is a real number. -/
theorem all_real {s : Shape} {axes : List (Fin s.rank)} (a : FVec Ideal s .f32)
    (hb : Cert.Pre_finite_inputs.S_.BroadcastsInDim s ![]) (hr : s.ReducesTo axes Cert.Pre_finite_inputs.S_)
    (hu : 0 < Cert.Pre_finite_inputs.S_.numel) (init : IVec Cert.Pre_finite_inputs.S_ 1)
    (j : Cert.Pre_finite_inputs.S_.Idx)
    (h : Host.reduce IntOp.andi
        (cmpf .olt (Host.absf a)
          (broadcastInDim s ![] hb (constant (F := Ideal) Cert.Pre_finite_inputs.S_ .f32 0x7F800000#32)))
        init hr hu j = 1#1) :
    ∀ i, ∃ r : ℝ, a i = (r : EReal) := fun i =>
  real_of_abs_lt_inf (a i) (Host.reduce_andi_all _ _ hr hu j h i)

/-- "All of a ≥ 0" read back: every entry of a is non-negative. -/
theorem all_nonneg {s : Shape} {axes : List (Fin s.rank)} (a : FVec Ideal s .f32)
    (hb : Cert.Pre_finite_inputs.S_.BroadcastsInDim s ![]) (hr : s.ReducesTo axes Cert.Pre_finite_inputs.S_)
    (hu : 0 < Cert.Pre_finite_inputs.S_.numel) (init : IVec Cert.Pre_finite_inputs.S_ 1)
    (j : Cert.Pre_finite_inputs.S_.Idx)
    (h : Host.reduce IntOp.andi
        (cmpf .oge a (broadcastInDim s ![] hb (constant (F := Ideal) Cert.Pre_finite_inputs.S_ .f32 0x00000000#32)))
        init hr hu j = 1#1) :
    ∀ i, 0 ≤ a i := fun i =>
  nonneg_of_oge_zero (a i) (Host.reduce_andi_all _ _ hr hu j h i)

/-- The stated precondition read back: every float input is an array of real numbers, and the variances are
    non-negative. -/
theorem pre_read [Cert.Pre_finite_inputs.Facts]
    (a0 a3 : FVec Ideal Cert.Pre_finite_inputs.S2x100000x3 .f32) (a1 a4 : IVec Cert.Pre_finite_inputs.S2x100000 1)
    (a2 a5 : IVec Cert.Pre_finite_inputs.S2x100000 32) (a6 : FVec Ideal Cert.Pre_finite_inputs.S64x3 .f32)
    (a7 a8 a9 a10 a11 : FVec Ideal Cert.Pre_finite_inputs.S64 .f32)
    (h : Cert.Pre_finite_inputs.fn (F := Ideal) a0 a1 a2 a3 a4 a5 a6 a7 a8 a9 a10 a11 = fun _ => 1#1) :
    (∀ i, ∃ r : ℝ, a0 i = (r : EReal)) ∧ (∀ i, ∃ r : ℝ, a3 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) ∧ (∀ i, ∃ r : ℝ, a11 i = (r : EReal) ∧ 0 ≤ r) := by
  have h0 := congrFun h ValueIdx.ix0
  dsimp only [Cert.Pre_finite_inputs.fn, Cert.Pre_finite_inputs.fn_part1, Cert.Pre_finite_inputs.fn_part2] at h0
  obtain ⟨h0, e41⟩ := andi_one _ _ _ h0
  obtain ⟨h0, e37⟩ := andi_one _ _ _ h0
  obtain ⟨h0, e32⟩ := andi_one _ _ _ h0
  obtain ⟨h0, e27⟩ := andi_one _ _ _ h0
  obtain ⟨h0, e22⟩ := andi_one _ _ _ h0
  obtain ⟨h0, e17⟩ := andi_one _ _ _ h0
  obtain ⟨h0, e12⟩ := andi_one _ _ _ h0
  obtain ⟨e3, e7⟩ := andi_one _ _ _ h0
  have r11 := all_real a11 _ _ _ _ _ e37
  have n11 := all_nonneg a11 _ _ _ _ _ e41
  refine ⟨all_real a0 _ _ _ _ _ e3, all_real a3 _ _ _ _ _ e7, all_real a6 _ _ _ _ _ e12, all_real a7 _ _ _ _ _ e17,
    all_real a8 _ _ _ _ _ e22, all_real a9 _ _ _ _ _ e27, all_real a10 _ _ _ _ _ e32, fun i => ?_⟩
  obtain ⟨r, hr⟩ := r11 i
  exact ⟨r, hr, by have := n11 i; rw [hr] at this; exact_mod_cast this⟩

end Cert.Pillar.Bridge

end
-- ==== Proof.KRun.lean ====
/-
  The kernel program's run, read: every weakly fair execution ends with the result array at the grid of pillars of the
  argument arrays — the normalisation applied after the linear layer, as the reference spells it — and the argument arrays
  unchanged.

  The chain: the result buffer after the lines that follow the launch is the scatter of the launch's array of embeddings
  at the padded cell numbers; the launch's array is the embeddings of its four operand arrays; those are the padded,
  stacked arguments and the folded weights and bias; a padded point has mask zero, so it adds nothing to cell zero; and
  under the precondition (every number finite, no variance negative) the folded embedding is the unfolded one.
-/
import proofs.«150501_j71313636983306_2_alg».proof.Defs
import proofs.«150501_j71313636983306_2_alg».proof.Proof.Gen.KernelIdeal.Frame
import proofs.«150501_j71313636983306_2_alg».proof.Proof.Gen.Pre_finite_inputs
import proofs.«150501_j71313636983306_2_alg».proof.Proof.KV
import proofs.«150501_j71313636983306_2_alg».proof.Proof.KTail
import proofs.«150501_j71313636983306_2_alg».proof.Proof.KEmb
import proofs.«150501_j71313636983306_2_alg».proof.Proof.KFinal
import proofs.«150501_j71313636983306_2_alg».proof.Proof.Bridge

set_option maxRecDepth 16384

noncomputable section

namespace Cert.Pillar.KRun

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The grid of pillars of core `c`'s argument arrays, the normalisation applied after the linear layer. -/
def G (c : Dev nD) : Buf (Elt Ideal) ((c.tc : Thread nD τ).loc main_v50) :=
  pillars (embAfter (m ((c.tc : Thread nD τ).loc main_arg0)) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
    (embAfter (m ((c.tc : Thread nD τ).loc main_arg3)) (m ((c.tc : Thread nD τ).loc main_arg4)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (m ((c.tc : Thread nD τ).loc main_arg2)) (m ((c.tc : Thread nD τ).loc main_arg5))

/-- The result buffer after the whole program, under the precondition. -/
theorem value_eq (hpre : Cert.Pre_KernelIdeal m) (c : Dev nD) :
    Pipeline.afterTail₀ cfgs (dats m) 0 (V0 m) [hostOps1] c main_v50 = G m c := by
  obtain ⟨h0, h3, h6, h7, h8, h9, h10, h11⟩ := Bridge.pre_read _ _ _ _ _ _ _ _ _ _ _ _ (hpre c)
  refine (KTail.result_eq m c).trans ?_
  rw [KV.V_v17 m c, KEmb.final4 m c, KV.V_v13 m c, KV.V_v16 m c, KV.V_v27 m c, KV.V_v29 m c]
  refine (KFinal.kernel_value _ _ _ _ _ _ _ _ _ _ _ _).trans ?_
  unfold G
  rw [Bridge.embFolded_eq_embAfter _ _ _ _ _ _ _ _ h0 h6 h7 h8 h9 h10 h11,
    Bridge.embFolded_eq_embAfter _ _ _ _ _ _ _ _ h3 h6 h7 h8 h9 h10 h11]

/-- THE RUN, READ. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v50) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨((h c).2 main_v50 (Pipeline.mem_restRefs_of main_v50 (by decide) (by decide))).trans (value_eq m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.Pillar.KRun

end
-- ==== Proof.RefValue.lean ====
/-
  The reference program read as the common mathematics.

  The reference embeds each point of the two time steps (a linear layer of three inputs, the batch normalisation applied
  after it, a rectification, a zero for a masked point), adds every embedded point into the grid cell its cell number
  names (one scatter-add per time step, whose index pairs are the batch number and the cell number with a negative
  one counted from the end), turns each grid `[batch, cell, channel]` into `[batch, channel, x, y]`, and stacks the two
  time steps on a new axis that it then merges with the batch axis. Read at an entry this is `pillars` of the
  embeddings `embAfter`: row `2·b + t` is batch `b` at time step `t`, and cell `(x, y)` collects the points whose
  cell number is `640·x + y`.
-/
import proofs.«150501_j71313636983306_2_alg».proof.Proof.Spec
import proofs.«150501_j71313636983306_2_alg».proof.Proof.LibScatterBatch
import proofs.«150501_j71313636983306_2_alg».proof.Proof.Gen.ReferenceIdeal.Read
import Idealize.ShloMosaic.Lib.Pipeline.Value
import Idealize.ShloMosaic.Lib.ValueIdx
import Idealize.ShloMosaic.PureOps.Ideal.Laws

noncomputable section

namespace Cert.Pillar.Ref

open Idealize.ShloMosaic Idealize.ShloMosaic.ValueIdx Cert.ReferenceIdeal Cert.ReferenceIdeal.Read Cert.Pillar

/-- A point cloud, a mask, a column of cell numbers, the layer's weights, a vector of sixty-four numbers. -/
abbrev TPcl := (⟨S2x100000x3, .f32⟩ : BufTy).Contents (Elt Ideal)
abbrev TMask := (⟨S2x100000, .i1⟩ : BufTy).Contents (Elt Ideal)
abbrev TCell := (⟨S2x100000, .i32⟩ : BufTy).Contents (Elt Ideal)
abbrev TW := (⟨S64x3, .f32⟩ : BufTy).Contents (Elt Ideal)
abbrev TV := (⟨S64, .f32⟩ : BufTy).Contents (Elt Ideal)

/-! ## The embedding of one point -/

section Embedding
variable (b : Fin 2) (n : Fin 100000) (d : Fin 64)

private theorem i_v1 : idx_main_v1 (idx_main_v2 (ix3 b n d)) = ix1 d := by
  funext a; match a with | ⟨0, _⟩ => rfl
private theorem i_v4 : idx_main_v4 (idx_main_v5 (ix3 b n d)) = ix1 d := by
  funext a; match a with | ⟨0, _⟩ => rfl
private theorem i_v11 : idx_main_v11 (idx_main_v12 (ix3 b n d)) = ix1 d := by
  funext a; match a with | ⟨0, _⟩ => rfl
private theorem i_v14 : idx_main_v14 (idx_main_v15 (ix3 b n d)) = ix1 d := by
  funext a; match a with | ⟨0, _⟩ => rfl
private theorem i_v18 : idx_main_v18 (idx_main_v20 (ix3 b n d)) = ix2 b n := by
  funext a; match a with | ⟨0, _⟩ => rfl | ⟨1, _⟩ => rfl
private theorem i_l0 (k : Fin 3) : lidx_main_v0 (ix3 b n d) k = ix3 b n k := by
  funext a; match a with | ⟨0, _⟩ => rfl | ⟨1, _⟩ => rfl | ⟨2, _⟩ => rfl
private theorem i_r0 (k : Fin 3) : ridx_main_v0 (ix3 b n d) k = ix2 d k := by
  funext a; match a with | ⟨0, _⟩ => rfl | ⟨1, _⟩ => rfl

private theorem i_v23 : idx_main_v23 (idx_main_v24 (ix3 b n d)) = ix1 d := by
  funext a; match a with | ⟨0, _⟩ => rfl
private theorem i_v26 : idx_main_v26 (idx_main_v27 (ix3 b n d)) = ix1 d := by
  funext a; match a with | ⟨0, _⟩ => rfl
private theorem i_v33 : idx_main_v33 (idx_main_v34 (ix3 b n d)) = ix1 d := by
  funext a; match a with | ⟨0, _⟩ => rfl
private theorem i_v36 : idx_main_v36 (idx_main_v37 (ix3 b n d)) = ix1 d := by
  funext a; match a with | ⟨0, _⟩ => rfl
private theorem i_v40 : idx_main_v40 (idx_main_v42 (ix3 b n d)) = ix2 b n := by
  funext a; match a with | ⟨0, _⟩ => rfl | ⟨1, _⟩ => rfl
private theorem i_l22 (k : Fin 3) : lidx_main_v22 (ix3 b n d) k = ix3 b n k := by
  funext a; match a with | ⟨0, _⟩ => rfl | ⟨1, _⟩ => rfl | ⟨2, _⟩ => rfl
private theorem i_r22 (k : Fin 3) : ridx_main_v22 (ix3 b n d) k = ix2 d k := by
  funext a; match a with | ⟨0, _⟩ => rfl | ⟨1, _⟩ => rfl

/-- THE PREVIOUS STEP'S EMBEDDING at a point and a channel is `embAfter`: the linear layer is the sum over the three
    inputs, the per-channel vectors are read at the channel, the rectification's zero is the zero word. -/
theorem emb0_apply (x0 : TPcl) (x1 : TMask) (x6 : TW) (x7 x8 x9 x10 x11 : TV) :
    val_main_v21 (F := Ideal) x0 x1 x6 x7 x8 x9 x10 x11 (ix3 b n d) = embAfter x0 x1 x6 x7 x8 x9 x10 x11 b n d := by
  rw [val_main_v21_apply, val_main_v17_apply, val_main_v16_apply, val_main_v13_apply, val_main_v6_apply,
    val_main_v3_apply, val_main_v0_apply, val_main_v2_apply, val_main_v1_apply, val_main_v5_apply, val_main_v4_apply,
    val_main_v12_apply, val_main_v11_apply, val_main_v10_apply, val_main_v9_apply, val_main_v8_apply,
    val_main_v7_apply, val_main_cst_apply, val_main_v15_apply, val_main_v14_apply, val_main_call0_v0_apply,
    val_main_call0_cst_apply, val_main_v20_apply, val_main_v19_apply, val_main_v18_apply,
    i_v1, i_v4, i_v11, i_v14, i_v18]
  simp only [i_l0, i_r0]
  rw [show FloatOps.ofBits (F := Ideal) .f32 0x00000000#32 = (0 : EReal) from Ideal.ofBits_zero_f32]
  rfl

/-- THE CURRENT STEP'S EMBEDDING at a point and a channel is `embAfter`. -/
theorem emb1_apply (x3 : TPcl) (x4 : TMask) (x6 : TW) (x7 x8 x9 x10 x11 : TV) :
    val_main_v43 (F := Ideal) x3 x4 x6 x7 x8 x9 x10 x11 (ix3 b n d) = embAfter x3 x4 x6 x7 x8 x9 x10 x11 b n d := by
  rw [val_main_v43_apply, val_main_v39_apply, val_main_v38_apply, val_main_v35_apply, val_main_v28_apply,
    val_main_v25_apply, val_main_v22_apply, val_main_v24_apply, val_main_v23_apply, val_main_v27_apply,
    val_main_v26_apply, val_main_v34_apply, val_main_v33_apply, val_main_v32_apply, val_main_v31_apply,
    val_main_v30_apply, val_main_v29_apply, val_main_cst_0_apply, val_main_v37_apply, val_main_v36_apply,
    val_main_call1_v0_apply, val_main_call1_cst_apply, val_main_v42_apply, val_main_v41_apply, val_main_v40_apply,
    i_v23, i_v26, i_v33, i_v36, i_v40]
  simp only [i_l22, i_r22]
  rw [show FloatOps.ofBits (F := Ideal) .f32 0x00000000#32 = (0 : EReal) from Ideal.ofBits_zero_f32]
  rfl

end Embedding

/-! ## The scatter's index pairs -/

section Indices
variable (b : Fin 2) (n : Fin 100000)

/-- A batch number under the wrap-around of a negative one reads, signed, as itself. -/
private theorem batch_word (b : Fin 2) :
    (Scalar.select (IntOp.cmpi .slt (BitVec.ofNat 32 b.val) 0#32) (IntOp.addi (BitVec.ofNat 32 b.val) 2#32)
      (BitVec.ofNat 32 b.val)).toInt = (b.val : Int) := by
  fin_cases b <;> rfl

private theorem i_v59 : idx_main_v59 (ix3 b n (0 : Fin 1)) = ix2 b n := by
  funext a; match a with | ⟨0, _⟩ => rfl | ⟨1, _⟩ => rfl
private theorem i_v79 : idx_main_v79 (ix3 b n (0 : Fin 1)) = ix2 b n := by
  funext a; match a with | ⟨0, _⟩ => rfl | ⟨1, _⟩ => rfl

/-- THE FIRST NUMBER of a point's index pair is its batch number (previous step). -/
theorem idx0_col0 (x2 : TCell) : (val_main_v60 (F := Ideal) x2 (ix3 b n (0 : Fin 2))).toInt = (b.val : Int) := by
  unfold val_main_v60
  rw [concatenate_pair_apply_left (t := S2x100000x2) (s₁ := S2x100000x1) (s₂ := S2x100000x1) 2 _ _ _ (ix3 b n (0 : Fin 2)) rfl (ix3 b n (0 : Fin 1))
    (fun c => match c with | ⟨0, _⟩ => rfl | ⟨1, _⟩ => rfl | ⟨2, _⟩ => rfl)]
  rw [val_main_v58_apply, val_main_v57_apply, val_main_v51_apply, val_main_v48_apply, val_main_v50_apply,
    val_main_v46_apply, val_main_v45_apply, val_main_v47_apply, val_main_v49_apply, val_main_c_apply,
    val_main_c_2_apply]
  exact batch_word b

/-- THE SECOND NUMBER of a point's index pair is its cell number, a negative one counted from the end (previous step). -/
theorem idx0_col1 (x2 : TCell) : val_main_v60 (F := Ideal) x2 (ix3 b n (1 : Fin 2)) = normCell (x2 (ix2 b n)) := by
  unfold val_main_v60
  rw [concatenate_pair_apply_right (t := S2x100000x2) (s₁ := S2x100000x1) (s₂ := S2x100000x1) 2 _ _ _ (ix3 b n (1 : Fin 2)) rfl rfl (ix3 b n (0 : Fin 1))
    (fun c => match c with | ⟨0, _⟩ => fun _ => rfl | ⟨1, _⟩ => fun _ => rfl | ⟨2, _⟩ => fun h => absurd rfl h) rfl]
  rw [val_main_v59_apply, val_main_v56_apply, val_main_v53_apply, val_main_v55_apply, val_main_v52_apply,
    val_main_v54_apply, val_main_c_3_apply, val_main_c_4_apply, i_v59]
  rfl

/-- The first number of a point's index pair is its batch number (current step). -/
theorem idx1_col0 (x5 : TCell) : (val_main_v80 (F := Ideal) x5 (ix3 b n (0 : Fin 2))).toInt = (b.val : Int) := by
  unfold val_main_v80
  rw [concatenate_pair_apply_left (t := S2x100000x2) (s₁ := S2x100000x1) (s₂ := S2x100000x1) 2 _ _ _ (ix3 b n (0 : Fin 2)) rfl (ix3 b n (0 : Fin 1))
    (fun c => match c with | ⟨0, _⟩ => rfl | ⟨1, _⟩ => rfl | ⟨2, _⟩ => rfl)]
  rw [val_main_v78_apply, val_main_v77_apply, val_main_v71_apply, val_main_v68_apply, val_main_v70_apply,
    val_main_v66_apply, val_main_v65_apply, val_main_v67_apply, val_main_v69_apply, val_main_c_6_apply,
    val_main_c_7_apply]
  exact batch_word b

/-- The second number of a point's index pair is its cell number, a negative one counted from the end (current step). -/
theorem idx1_col1 (x5 : TCell) : val_main_v80 (F := Ideal) x5 (ix3 b n (1 : Fin 2)) = normCell (x5 (ix2 b n)) := by
  unfold val_main_v80
  rw [concatenate_pair_apply_right (t := S2x100000x2) (s₁ := S2x100000x1) (s₂ := S2x100000x1) 2 _ _ _ (ix3 b n (1 : Fin 2)) rfl rfl (ix3 b n (0 : Fin 1))
    (fun c => match c with | ⟨0, _⟩ => fun _ => rfl | ⟨1, _⟩ => fun _ => rfl | ⟨2, _⟩ => fun h => absurd rfl h) rfl]
  rw [val_main_v79_apply, val_main_v76_apply, val_main_v73_apply, val_main_v75_apply, val_main_v72_apply,
    val_main_v74_apply, val_main_c_8_apply, val_main_c_9_apply, i_v79]
  rfl

end Indices

/-! ## The scatter-add at an entry -/

section Scatter
variable (b : Fin 2) (p : Fin 409600) (d : Fin 64)

/-- THE PREVIOUS STEP'S GRID at `(b, p, d)`: the zero grid's entry plus the embeddings of the points of batch `b` whose
    cell number is `p`. -/
theorem scat0_apply (x0 : TPcl) (x1 : TMask) (x2 : TCell) (x6 : TW) (x7 x8 x9 x10 x11 : TV) :
    val_main_v61 (F := Ideal) x0 x1 x2 x6 x7 x8 x9 x10 x11 (ix3 b p d)
      = cellSum (fun n => x2 (ix2 b n)) (fun n => embAfter x0 x1 x6 x7 x8 x9 x10 x11 b n d) p.val := by
  unfold val_main_v61 Host.scatterAdd
  rw [Ideal.hostScatterAdd_def]
  refine (Cert.ScatterBatch.scatterAdd_batched_apply (B := 2) (P := 409600) (D := 64) (N := 100000)
    scatter_S2x409600x64_S2x100000x2_S2x100000x64_2_01_01_2 rfl rfl rfl rfl _ _ _ (fun b n => idx0_col0 b n x2) b p d).trans ?_
  rw [val_main_v44_apply, val_main_cst_1_apply, Ideal.ofBits_def, Ideal.ofBits_zero_f32, zero_add]
  unfold cellSum
  refine Finset.sum_congr rfl fun n _ => ?_
  rw [idx0_col1, emb0_apply]

/-- THE CURRENT STEP'S GRID at `(b, p, d)`. -/
theorem scat1_apply (x3 : TPcl) (x4 : TMask) (x5 : TCell) (x6 : TW) (x7 x8 x9 x10 x11 : TV) :
    val_main_v81 (F := Ideal) x3 x4 x5 x6 x7 x8 x9 x10 x11 (ix3 b p d)
      = cellSum (fun n => x5 (ix2 b n)) (fun n => embAfter x3 x4 x6 x7 x8 x9 x10 x11 b n d) p.val := by
  unfold val_main_v81 Host.scatterAdd
  rw [Ideal.hostScatterAdd_def]
  refine (Cert.ScatterBatch.scatterAdd_batched_apply (B := 2) (P := 409600) (D := 64) (N := 100000)
    scatter_S2x409600x64_S2x100000x2_S2x100000x64_2_01_01_2 rfl rfl rfl rfl _ _ _ (fun b n => idx1_col0 b n x5) b p d).trans ?_
  rw [val_main_v64_apply, val_main_cst_5_apply, Ideal.ofBits_def, Ideal.ofBits_zero_f32, zero_add]
  unfold cellSum
  refine Finset.sum_congr rfl fun n _ => ?_
  rw [idx1_col1, emb1_apply]

end Scatter

/-! ## The grids turned, stacked and merged -/

section Tail

/-- The cell number of grid position `(X, Y)`. -/
private def cellOf (X Y : Fin 640) : Fin 409600 :=
  ⟨X.val * 640 + Y.val, by have hX := X.isLt; have hY := Y.isLt; omega⟩

/-- Entry `(b, 0, d, X, Y)` of the previous step's grid with its unit axis reads the scatter result at
    `(b, 640·X + Y, d)`: the unit axis is dropped, the two grid axes are one row-major cell axis, the cell and
    channel axes are exchanged. -/
private theorem i_t0 (bb : Fin 2) (dd : Fin 64) (X Y : Fin 640) :
    idx_main_v62 (idx_main_v63 (idx_main_v84 (ix5 bb (0 : Fin 1) dd X Y))) = ix3 bb (cellOf X Y) dd := by
  have hb := bb.isLt; have hd := dd.isLt; have hX := X.isLt; have hY := Y.isLt
  funext a; apply Fin.ext
  match a with
  | ⟨0, _⟩ => show (((bb.val * 64 + dd.val) * 640 + X.val) * 640 + Y.val) / 26214400 = bb.val; omega
  | ⟨1, _⟩ => show (((bb.val * 64 + dd.val) * 640 + X.val) * 640 + Y.val) % 409600 = X.val * 640 + Y.val; omega
  | ⟨2, _⟩ => show (((bb.val * 64 + dd.val) * 640 + X.val) * 640 + Y.val) / 409600 % 64 = dd.val; omega

private theorem i_t1 (bb : Fin 2) (dd : Fin 64) (X Y : Fin 640) :
    idx_main_v82 (idx_main_v83 (idx_main_v85 (ix5 bb (0 : Fin 1) dd X Y))) = ix3 bb (cellOf X Y) dd := by
  have hb := bb.isLt; have hd := dd.isLt; have hX := X.isLt; have hY := Y.isLt
  funext a; apply Fin.ext
  match a with
  | ⟨0, _⟩ => show (((bb.val * 64 + dd.val) * 640 + X.val) * 640 + Y.val) / 26214400 = bb.val; omega
  | ⟨1, _⟩ => show (((bb.val * 64 + dd.val) * 640 + X.val) * 640 + Y.val) % 409600 = X.val * 640 + Y.val; omega
  | ⟨2, _⟩ => show (((bb.val * 64 + dd.val) * 640 + X.val) * 640 + Y.val) / 409600 % 64 = dd.val; omega

/-- THE PREVIOUS STEP'S PILLARS with their unit time axis, at `(b, 0, d, X, Y)`: what cell `640·X + Y` of batch `b`
    collects on channel `d`. -/
theorem grid0_apply (bb : Fin 2) (dd : Fin 64) (X Y : Fin 640) (x0 : TPcl) (x1 : TMask) (x2 : TCell) (x6 : TW)
    (x7 x8 x9 x10 x11 : TV) :
    val_main_v84 (F := Ideal) x0 x1 x2 x6 x7 x8 x9 x10 x11 (ix5 bb (0 : Fin 1) dd X Y)
      = cellSum (fun n => x2 (ix2 bb n)) (fun n => embAfter x0 x1 x6 x7 x8 x9 x10 x11 bb n dd) (X.val * 640 + Y.val) := by
  rw [val_main_v84_apply, val_main_v63_apply, val_main_v62_apply, i_t0, scat0_apply]
  rfl

/-- THE CURRENT STEP'S PILLARS with their unit time axis, at `(b, 0, d, X, Y)`. -/
theorem grid1_apply (bb : Fin 2) (dd : Fin 64) (X Y : Fin 640) (x3 : TPcl) (x4 : TMask) (x5 : TCell) (x6 : TW)
    (x7 x8 x9 x10 x11 : TV) :
    val_main_v85 (F := Ideal) x3 x4 x5 x6 x7 x8 x9 x10 x11 (ix5 bb (0 : Fin 1) dd X Y)
      = cellSum (fun n => x5 (ix2 bb n)) (fun n => embAfter x3 x4 x6 x7 x8 x9 x10 x11 bb n dd) (X.val * 640 + Y.val) := by
  rw [val_main_v85_apply, val_main_v83_apply, val_main_v82_apply, i_t1, scat1_apply]
  rfl

/-- THE REFERENCE IS THE GRID OF PILLARS of the two steps' embeddings `embAfter`: merging the batch axis with the
    time axis makes row `r` batch `r / 2` at time step `r % 2`, and the stacking reads the previous step's pillars
    at time step 0, the current step's at time step 1. -/
theorem ref_eq (x0 x3 : (⟨Cert.ReferenceIdeal.S2x100000x3, .f32⟩ : BufTy).Contents (Elt Ideal))
    (x1 x4 : (⟨Cert.ReferenceIdeal.S2x100000, .i1⟩ : BufTy).Contents (Elt Ideal))
    (x2 x5 : (⟨Cert.ReferenceIdeal.S2x100000, .i32⟩ : BufTy).Contents (Elt Ideal))
    (x6 : (⟨Cert.ReferenceIdeal.S64x3, .f32⟩ : BufTy).Contents (Elt Ideal))
    (x7 x8 x9 x10 x11 : (⟨Cert.ReferenceIdeal.S64, .f32⟩ : BufTy).Contents (Elt Ideal)) :
    Cert.ReferenceIdeal.Read.val_main_v87 (F := Ideal) x0 x1 x2 x3 x4 x5 x6 x7 x8 x9 x10 x11
      = Cert.Pillar.pillars (Cert.Pillar.embAfter x0 x1 x6 x7 x8 x9 x10 x11)
          (Cert.Pillar.embAfter x3 x4 x6 x7 x8 x9 x10 x11) x2 x5 := by
  funext i
  have h0 : (i 0).val < 4 := (i 0).isLt
  have h1 : (i 1).val < 64 := (i 1).isLt
  have h2 : (i 2).val < 640 := (i 2).isLt
  have h3 : (i 3).val < 640 := (i 3).isLt
  rw [val_main_v87_apply]
  unfold val_main_v86 pillars
  by_cases ht : (i 0).val % 2 = 0
  · rw [if_pos ht]
    refine (concatenate_pair_apply_left (t := S2x2x64x640x640) (s₁ := S2x1x64x640x640) (s₂ := S2x1x64x640x640) 1 _ _ _
      (idx_main_v87 i) rfl (ix5 (batchOf i) (0 : Fin 1) (i 1) (i 2) (i 3))
      (fun c => match c with
        | ⟨0, _⟩ => by
            show (i 0).val / 2 = ((((i 0).val * 64 + (i 1).val) * 640 + (i 2).val) * 640 + (i 3).val) / 52428800; omega
        | ⟨1, _⟩ => by
            show 0 = ((((i 0).val * 64 + (i 1).val) * 640 + (i 2).val) * 640 + (i 3).val) / 26214400 % 2; omega
        | ⟨2, _⟩ => by
            show (i 1).val = ((((i 0).val * 64 + (i 1).val) * 640 + (i 2).val) * 640 + (i 3).val) / 409600 % 64; omega
        | ⟨3, _⟩ => by
            show (i 2).val = ((((i 0).val * 64 + (i 1).val) * 640 + (i 2).val) * 640 + (i 3).val) / 640 % 640; omega
        | ⟨4, _⟩ => by
            show (i 3).val = ((((i 0).val * 64 + (i 1).val) * 640 + (i 2).val) * 640 + (i 3).val) % 640; omega)).trans ?_
    exact grid0_apply (batchOf i) (i 1) (i 2) (i 3) x0 x1 x2 x6 x7 x8 x9 x10 x11
  · rw [if_neg ht]
    refine (concatenate_pair_apply_right (t := S2x2x64x640x640) (s₁ := S2x1x64x640x640) (s₂ := S2x1x64x640x640) 1 _ _ _
      (idx_main_v87 i) rfl rfl (ix5 (batchOf i) (0 : Fin 1) (i 1) (i 2) (i 3))
      (fun c => match c with
        | ⟨0, _⟩ => fun _ => by
            show (i 0).val / 2 = ((((i 0).val * 64 + (i 1).val) * 640 + (i 2).val) * 640 + (i 3).val) / 52428800; omega
        | ⟨1, _⟩ => fun h => absurd rfl h
        | ⟨2, _⟩ => fun _ => by
            show (i 1).val = ((((i 0).val * 64 + (i 1).val) * 640 + (i 2).val) * 640 + (i 3).val) / 409600 % 64; omega
        | ⟨3, _⟩ => fun _ => by
            show (i 2).val = ((((i 0).val * 64 + (i 1).val) * 640 + (i 2).val) * 640 + (i 3).val) / 640 % 640; omega
        | ⟨4, _⟩ => fun _ => by
            show (i 3).val = ((((i 0).val * 64 + (i 1).val) * 640 + (i 2).val) * 640 + (i 3).val) % 640; omega)
      (by show 0 + 1 = ((((i 0).val * 64 + (i 1).val) * 640 + (i 2).val) * 640 + (i 3).val) / 26214400 % 2; omega)).trans ?_
    exact grid1_apply (batchOf i) (i 1) (i 2) (i 3) x3 x4 x5 x6 x7 x8 x9 x10 x11

end Tail

end Cert.Pillar.Ref

end
-- ==== Proof.lean ====
/-
  Two programs that scatter point embeddings into a grid of pillars, equal on the extended reals.

  A point cloud of two batches and two time steps is embedded point by point (a linear layer of three inputs and
  sixty-four outputs, an evaluation-mode batch normalisation, a rectification, a zero for a masked point), and every
  embedded point is added into the cell of a 640 × 640 grid that its cell number names. The reference normalises after the
  linear layer, time step by time step, and stacks the two grids. The kernel program stacks the time steps first, folds
  the normalisation's scale γ / √(σ² + ε) into the layer's weights and bias, embeds 4096 points per grid point of one
  launch — the point axis padded to a multiple of 4096 with masked points of cell number zero — and scatters all rows at
  once. A padded point's embedding is a product with a zero mask, so it adds nothing; sums on the extended reals may be
  taken in any order; and folding the scale in is distributivity, which holds once every number is finite and the scale
  is finite: the precondition asks for finite inputs and a variance that is not negative, so that σ² + ε is positive.

  The three frames are the generated ones (the reference's is its generated run with the result dropped); the
  idealization changed nothing, so nothing is owed for it; the value claim joins the kernel program's run
  (Proof/KRun.lean) and the reference's generated run read at an index (Proof/RefValue.lean) at one function of the
  argument arrays (Proof/Spec.lean).
-/
import proofs.«150501_j71313636983306_2_alg».proof.Defs
import proofs.«150501_j71313636983306_2_alg».proof.Proof.Gen.Kernel
import proofs.«150501_j71313636983306_2_alg».proof.Proof.Gen.Kernel.Skeleton
import proofs.«150501_j71313636983306_2_alg».proof.Proof.Gen.Kernel.Launch
import proofs.«150501_j71313636983306_2_alg».proof.Proof.Gen.Kernel.Points
import proofs.«150501_j71313636983306_2_alg».proof.Proof.Gen.Kernel.Frame
import proofs.«150501_j71313636983306_2_alg».proof.Proof.Gen.KernelIdeal
import proofs.«150501_j71313636983306_2_alg».proof.Proof.Gen.KernelIdeal.Skeleton
import proofs.«150501_j71313636983306_2_alg».proof.Proof.Gen.KernelIdeal.Launch
import proofs.«150501_j71313636983306_2_alg».proof.Proof.Gen.KernelIdeal.Points
import proofs.«150501_j71313636983306_2_alg».proof.Proof.Gen.KernelIdeal.Frame
import proofs.«150501_j71313636983306_2_alg».proof.Proof.Gen.ReferenceIdeal
import proofs.«150501_j71313636983306_2_alg».proof.Proof.Gen.Pre_finite_inputs
import proofs.«150501_j71313636983306_2_alg».proof.Proof.Gen.ReferenceIdeal.Run
import proofs.«150501_j71313636983306_2_alg».proof.Proof.Gen.ReferenceIdeal.Read
import proofs.«150501_j71313636983306_2_alg».proof.Proof.KRun
import proofs.«150501_j71313636983306_2_alg».proof.Proof.RefValue
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the grid of pillars of the argument arrays. -/
theorem algebraic : Cert.algebraic_KernelIdeal_ReferenceIdeal := by
  intro m ρ m' ρ' hpre hagree
  refine ⟨fun c => Cert.Pillar.KRun.G m c, Cert.Pillar.KRun.run m ρ hpre, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11⟩ := hagree c
  rw [Cert.ReferenceIdeal.Read.val_main_v87_eq, Cert.Pillar.Ref.ref_eq, e0, e1, e2, e3, e4, e5, e6, e7, e8, e9, e10, e11]
  rfl

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
